-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x6x8192 : Shape := ⟨3, ![1, 6, 8192]⟩
abbrev S256x6 : Shape := ⟨2, ![256, 6]⟩
abbrev S256 : Shape := ⟨1, ![256]⟩
abbrev S32x256 : Shape := ⟨2, ![32, 256]⟩
abbrev S32 : Shape := ⟨1, ![32]⟩
abbrev S_ : Shape := ⟨0, ![]⟩
abbrev S1x8192x6 : Shape := ⟨3, ![1, 8192, 6]⟩
abbrev S1x8192x8192 : Shape := ⟨3, ![1, 8192, 8192]⟩
abbrev S1x8192 : Shape := ⟨2, ![1, 8192]⟩
abbrev S1x8192x1 : Shape := ⟨3, ![1, 8192, 1]⟩
abbrev S1x1x8192 : Shape := ⟨3, ![1, 1, 8192]⟩

class Facts : Prop where
  bcast_S_S1x6x8192 : S_.BroadcastsInDim S1x6x8192 (![] : Fin 0 → Fin S1x6x8192.rank)
  reducesTo_S1x6x8192_S_d0_1_2 : S1x6x8192.ReducesTo [0, 1, 2] S_
  h_S_ : 0 < S_.numel
  bcast_S_S256x6 : S_.BroadcastsInDim S256x6 (![] : Fin 0 → Fin S256x6.rank)
  reducesTo_S256x6_S_d0_1 : S256x6.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  transposes_S1x6x8192_S1x8192x6_0_2_1 : S1x6x8192.Transposes [0, 2, 1] S1x8192x6
  bcast_S_S1x8192x8192 : S_.BroadcastsInDim S1x8192x8192 (![] : Fin 0 → Fin S1x8192x8192.rank)
  reducesTo_S1x8192x6_S1x8192_d2 : S1x8192x6.ReducesTo [2] S1x8192
  bcast_S1x8192_S1x8192x1_0_1 : S1x8192.BroadcastsInDim S1x8192x1 (![0, 1] : Fin 2 → Fin S1x8192x1.rank)
  bcast_S1x8192x1_S1x8192x8192_0_1_2 : S1x8192x1.BroadcastsInDim S1x8192x8192 (![0, 1, 2] : Fin 3 → Fin S1x8192x8192.rank)
  bcast_S1x8192_S1x1x8192_0_2 : S1x8192.BroadcastsInDim S1x1x8192 (![0, 2] : Fin 2 → Fin S1x1x8192.rank)
  bcast_S1x1x8192_S1x8192x8192_0_1_2 : S1x1x8192.BroadcastsInDim S1x8192x8192 (![0, 1, 2] : Fin 3 → Fin S1x8192x8192.rank)
  reducesTo_S1x8192x8192_S_d0_1_2 : S1x8192x8192.ReducesTo [0, 1, 2] S_
  dot_S1x8192x6_S1x8192x6_S1x8192x8192_2_2_1_1_0_0_wf : DotDims.WF S1x8192x6 S1x8192x6 S1x8192x8192 [2] [2] [1] [1] [0] [0]

variable [Facts]

def dot_S1x8192x6_S1x8192x6_S1x8192x8192_2_2_1_1_0_0 : DotDims S1x8192x6 S1x8192x6 S1x8192x8192 where
  lhsContracting := [2]
  rhsContracting := [2]
  lhsNonContracting := [1]
  rhsNonContracting := [1]
  lhsBatch := [0]
  rhsBatch := [0]
  wf := dot_S1x8192x6_S1x8192x6_S1x8192x8192_2_2_1_1_0_0_wf
def fn_part3 {F : FTy → Type} [FloatOps F] (main_v48 : IVec S_ 1) (main_v49 : FVec F S1x8192x6 .f32) (main_v50 : FVec F S1x8192x6 .f32) (main_v51 : FVec F S1x8192x8192 .f32) : IVec S_ 1 :=
  let main_cst_18 : FVec F S_ .f32 := constant S_ .f32 0xC0000000#32
  let main_v52 : FVec F S1x8192x8192 .f32 := broadcastInDim S1x8192x8192 ![] bcast_S_S1x8192x8192 main_cst_18
  let main_v53 : FVec F S1x8192x8192 .f32 := mulf main_v52 main_v51
  let main_v54 : FVec F S1x8192x6 .f32 := mulf main_v49 main_v49
  let main_cst_19 : FVec F S_ .f32 := constant S_ .f32 0x00000000#32
  let main_v55 : FVec F S1x8192 .f32 := (fun x v => Host.reduceAdd x v reducesTo_S1x8192x6_S1x8192_d2 h_S_) main_v54 main_cst_19
  let main_v56 : FVec F S1x8192x1 .f32 := broadcastInDim S1x8192x1 ![0, 1] bcast_S1x8192_S1x8192x1_0_1 main_v55
  let main_v57 : FVec F S1x8192x8192 .f32 := broadcastInDim S1x8192x8192 ![0, 1, 2] bcast_S1x8192x1_S1x8192x8192_0_1_2 main_v56
  let main_v58 : FVec F S1x8192x8192 .f32 := addf main_v53 main_v57
  let main_v59 : FVec F S1x8192x6 .f32 := mulf main_v50 main_v50
  let main_cst_20 : FVec F S_ .f32 := constant S_ .f32 0x00000000#32
  let main_v60 : FVec F S1x8192 .f32 := (fun x v => Host.reduceAdd x v reducesTo_S1x8192x6_S1x8192_d2 h_S_) main_v59 main_cst_20
  let main_v61 : FVec F S1x1x8192 .f32 := broadcastInDim S1x1x8192 ![0, 2] bcast_S1x8192_S1x1x8192_0_2 main_v60
  let main_v62 : FVec F S1x8192x8192 .f32 := broadcastInDim S1x8192x8192 ![0, 1, 2] bcast_S1x1x8192_S1x8192x8192_0_1_2 main_v61
  let main_v63 : FVec F S1x8192x8192 .f32 := addf main_v58 main_v62
  let main_cst_21 : FVec F S_ .f32 := constant S_ .f32 0x4CBEBC20#32
  let main_v64 : FVec F S1x8192x8192 .f32 := broadcastInDim S1x8192x8192 ![] bcast_S_S1x8192x8192 main_cst_21
  let main_v65 : IVec S1x8192x8192 1 := cmpf .ole main_v63 main_v64
  let main_c_22 : IVec S_ 1 := constantI S_ 1 1#1
  let main_v66 : IVec S_ 1 := (fun x v => Host.reduce IntOp.andi x v reducesTo_S1x8192x8192_S_d0_1_2 h_S_) main_v65 main_c_22
  let main_v67 : IVec S_ 1 := andi main_v48 main_v66
  main_v67

def fn_part2 {F : FTy → Type} [FloatOps F] (main_arg0 : FVec F S1x6x8192 .f32) (main_arg1 : FVec F S1x6x8192 .f32) (main_arg7 : FVec F S256 .f32) (main_arg8 : FVec F S32x256 .f32) (main_arg9 : FVec F S32 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S32x256 .f32 := Host.absf main_arg8
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x8192x6 .f32 := (transpose S1x8192x6 [0, 2, 1] · transposes_S1x6x8192_S1x8192x6_0_2_1) main_arg0
  let main_v50 : FVec F S1x8192x6 .f32 := (transpose S1x8192x6 [0, 2, 1] · transposes_S1x6x8192_S1x8192x6_0_2_1) main_arg1
  let main_v51 : FVec F S1x8192x8192 .f32 := (fun l r => Host.dotGeneral dot_S1x8192x6_S1x8192x6_S1x8192x8192_2_2_1_1_0_0 none l r) main_v49 main_v50
  fn_part3 (F := F) main_v48 main_v49 main_v50 main_v51

def fn_part1 {F : FTy → Type} [FloatOps F] (main_arg0 : FVec F S1x6x8192 .f32) (main_arg1 : FVec F S1x6x8192 .f32) (main_arg4 : FVec F S256x6 .f32) (main_arg5 : FVec F S256 .f32) (main_arg6 : FVec F S256x6 .f32) (main_arg7 : FVec F S256 .f32) (main_arg8 : FVec F S32x256 .f32) (main_arg9 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x6 .f32 := Host.absf main_arg4
  let main_cst_6 : FVec F S_ .f32 := constant S_ .f32 0x7F800000#32
  let main_v20 : FVec F S256x6 .f32 := broadcastInDim S256x6 ![] bcast_S_S256x6 main_cst_6
  let main_v21 : IVec S256x6 1 := cmpf .olt main_v19 main_v20
  let main_c_7 : IVec S_ 1 := constantI S_ 1 1#1
  let main_v22 : IVec S_ 1 := (fun x v => Host.reduce IntOp.andi x v reducesTo_S256x6_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x6 .f32 := Host.absf main_arg6
  let main_cst_10 : FVec F S_ .f32 := constant S_ .f32 0x7F800000#32
  let main_v30 : FVec F S256x6 .f32 := broadcastInDim S256x6 ![] bcast_S_S256x6 main_cst_10
  let main_v31 : IVec S256x6 1 := cmpf .olt main_v29 main_v30
  let main_c_11 : IVec S_ 1 := constantI S_ 1 1#1
  let main_v32 : IVec S_ 1 := (fun x v => Host.reduce IntOp.andi x v reducesTo_S256x6_S_d0_1 h_S_) main_v31 main_c_11
  let main_v33 : IVec S_ 1 := andi main_v28 main_v32
  fn_part2 (F := F) main_arg0 main_arg1 main_arg7 main_arg8 main_arg9 main_v33

def fn {F : FTy → Type} [FloatOps F] (main_arg0 : FVec F S1x6x8192 .f32) (main_arg1 : FVec F S1x6x8192 .f32) (main_arg2 : FVec F S256x6 .f32) (main_arg3 : FVec F S256 .f32) (main_arg4 : FVec F S256x6 .f32) (main_arg5 : FVec F S256 .f32) (main_arg6 : FVec F S256x6 .f32) (main_arg7 : FVec F S256 .f32) (main_arg8 : FVec F S32x256 .f32) (main_arg9 : FVec F S32 .f32) : IVec S_ 1 :=
  let main_v0 : FVec F S1x6x8192 .f32 := Host.absf main_arg0
  let main_cst : FVec F S_ .f32 := constant S_ .f32 0x7F800000#32
  let main_v1 : FVec F S1x6x8192 .f32 := broadcastInDim S1x6x8192 ![] bcast_S_S1x6x8192 main_cst
  let main_v2 : IVec S1x6x8192 1 := cmpf .olt main_v0 main_v1
  let main_c : IVec S_ 1 := constantI S_ 1 1#1
  let main_v3 : IVec S_ 1 := (fun x v => Host.reduce IntOp.andi x v reducesTo_S1x6x8192_S_d0_1_2 h_S_) main_v2 main_c
  let main_v4 : FVec F S1x6x8192 .f32 := Host.absf main_arg1
  let main_cst_0 : FVec F S_ .f32 := constant S_ .f32 0x7F800000#32
  let main_v5 : FVec F S1x6x8192 .f32 := broadcastInDim S1x6x8192 ![] bcast_S_S1x6x8192 main_cst_0
  let main_v6 : IVec S1x6x8192 1 := cmpf .olt main_v4 main_v5
  let main_c_1 : IVec S_ 1 := constantI S_ 1 1#1
  let main_v7 : IVec S_ 1 := (fun x v => Host.reduce IntOp.andi x v reducesTo_S1x6x8192_S_d0_1_2 h_S_) main_v6 main_c_1
  let main_v8 : IVec S_ 1 := andi main_v3 main_v7
  let main_v9 : FVec F S256x6 .f32 := Host.absf main_arg2
  let main_cst_2 : FVec F S_ .f32 := constant S_ .f32 0x7F800000#32
  let main_v10 : FVec F S256x6 .f32 := broadcastInDim S256x6 ![] bcast_S_S256x6 main_cst_2
  let main_v11 : IVec S256x6 1 := cmpf .olt main_v9 main_v10
  let main_c_3 : IVec S_ 1 := constantI S_ 1 1#1
  let main_v12 : IVec S_ 1 := (fun x v => Host.reduce IntOp.andi x v reducesTo_S256x6_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg4 main_arg5 main_arg6 main_arg7 main_arg8 main_arg9 main_v13 main_v16
-- ==== Kernel.lean ====
abbrev S1x6x8192 : Shape := ⟨3, ![1, 6, 8192]⟩
abbrev S256x6 : Shape := ⟨2, ![256, 6]⟩
abbrev S256 : Shape := ⟨1, ![256]⟩
abbrev S32x256 : Shape := ⟨2, ![32, 256]⟩
abbrev S32 : Shape := ⟨1, ![32]⟩
abbrev S1x8192x6 : Shape := ⟨3, ![1, 8192, 6]⟩
abbrev S1x32x6 : Shape := ⟨3, ![1, 32, 6]⟩
abbrev S1x6x32 : Shape := ⟨3, ![1, 6, 32]⟩
abbrev S6x256 : Shape := ⟨2, ![6, 256]⟩
abbrev S256x32 : Shape := ⟨2, ![256, 32]⟩
abbrev S1x8192x256 : Shape := ⟨3, ![1, 8192, 256]⟩
abbrev S1x256x6 : Shape := ⟨3, ![1, 256, 6]⟩
abbrev S1x256x256 : Shape := ⟨3, ![1, 256, 256]⟩
abbrev S6x32 : Shape := ⟨2, ![6, 32]⟩
abbrev S256x6x1 : Shape := ⟨3, ![256, 6, 1]⟩
abbrev S256x6x32 : Shape := ⟨3, ![256, 6, 32]⟩
abbrev S256x256 : Shape := ⟨2, ![256, 256]⟩
abbrev S1x256 : Shape := ⟨2, ![1, 256]⟩
abbrev S256x32x6 : Shape := ⟨3, ![256, 32, 6]⟩
abbrev S8192x6 : Shape := ⟨2, ![8192, 6]⟩
abbrev S8192x256 : Shape := ⟨2, ![8192, 256]⟩
abbrev S256x32x256 : Shape := ⟨3, ![256, 32, 256]⟩
abbrev S1x32 : Shape := ⟨2, ![1, 32]⟩
abbrev S256x1 : Shape := ⟨2, ![256, 1]⟩
abbrev S256x32x1 : Shape := ⟨3, ![256, 32, 1]⟩

abbrev nBuf : Space → Nat
  | .hbm => 19
  | .vmem => 13
  | .smem => 0
  | _ => 0

abbrev bufTy : (tb : Table) → Fin (tcTables nBuf tb) → BufTy
  | .hbm, ⟨0, _⟩ => ⟨S1x6x8192, .f32⟩
  | .hbm, ⟨1, _⟩ => ⟨S1x6x8192, .f32⟩
  | .hbm, ⟨2, _⟩ => ⟨S256x6, .f32⟩
  | .hbm, ⟨3, _⟩ => ⟨S256, .f32⟩
  | .hbm, ⟨4, _⟩ => ⟨S256x6, .f32⟩
  | .hbm, ⟨5, _⟩ => ⟨S256, .f32⟩
  | .hbm, ⟨6, _⟩ => ⟨S256x6, .f32⟩
  | .hbm, ⟨7, _⟩ => ⟨S256, .f32⟩
  | .hbm, ⟨8, _⟩ => ⟨S32x256, .f32⟩
  | .hbm, ⟨9, _⟩ => ⟨S32, .f32⟩
  | .hbm, ⟨10, _⟩ => ⟨S1x8192x6, .f32⟩
  | .hbm, ⟨11, _⟩ => ⟨S1x8192x6, .f32⟩
  | .hbm, ⟨12, _⟩ => ⟨S1x32x6, .f32⟩
  | .hbm, ⟨13, _⟩ => ⟨S1x6x32, .f32⟩
  | .hbm, ⟨14, _⟩ => ⟨S6x256, .f32⟩
  | .hbm, ⟨15, _⟩ => ⟨S6x256, .f32⟩
  | .hbm, ⟨16, _⟩ => ⟨S6x256, .f32⟩
  | .hbm, ⟨17, _⟩ => ⟨S256x32, .f32⟩
  | .hbm, ⟨18, _⟩ => ⟨S1x8192x256, .f32⟩
  | .local _ .vmem, ⟨0, _⟩ => ⟨S1x256x6, .f32⟩
  | .local _ .vmem, ⟨1, _⟩ => ⟨S1x256x6, .f32⟩
  | .local _ .vmem, ⟨2, _⟩ => ⟨S1x6x32, .f32⟩
  | .local _ .vmem, ⟨3, _⟩ => ⟨S6x256, .f32⟩
  | .local _ .vmem, ⟨4, _⟩ => ⟨S256, .f32⟩
  | .local _ .vmem, ⟨5, _⟩ => ⟨S6x256, .f32⟩
  | .local _ .vmem, ⟨6, _⟩ => ⟨S256, .f32⟩
  | .local _ .vmem, ⟨7, _⟩ => ⟨S6x256, .f32⟩
  | .local _ .vmem, ⟨8, _⟩ => ⟨S256, .f32⟩
  | .local _ .vmem, ⟨9, _⟩ => ⟨S256x32, .f32⟩
  | .local _ .vmem, ⟨10, _⟩ => ⟨S32, .f32⟩
  | .local _ .vmem, ⟨11, _⟩ => ⟨S1x256x256, .f32⟩
  | .local _ .vmem, ⟨12, _⟩ => ⟨S1x256x256, .f32⟩
  | _, _ => ⟨S1x6x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S1x6x8192_S1x8192x6_0_2_1 : S1x6x8192.Transposes [0, 2, 1] S1x8192x6
  slices_S1x8192x6_S1x32x6_0_0_0 : S1x8192x6.Slices ![0, 0, 0] S1x32x6
  transposes_S1x32x6_S1x6x32_0_2_1 : S1x32x6.Transposes [0, 2, 1] S1x6x32
  transposes_S256x6_S6x256_1_0 : S256x6.Transposes [1, 0] S6x256
  transposes_S32x256_S256x32_1_0 : S32x256.Transposes [1, 0] S256x32
  inb_S1x256x6_S1x256x6_0_0_0 : ∀ a, (![0, 0, 0] : Fin 3 → Nat) a + S1x256x6.size a ≤ S1x256x6.size a
  h_S1x256x6 : 0 < S1x256x6.numel
  shapeCasts_S1x256x6_S256x6 : S1x256x6.ShapeCasts S256x6
  inb_S1x6x32_S1x6x32_0_0_0 : ∀ a, (![0, 0, 0] : Fin 3 → Nat) a + S1x6x32.size a ≤ S1x6x32.size a
  h_S1x6x32 : 0 < S1x6x32.numel
  shapeCasts_S1x6x32_S6x32 : S1x6x32.ShapeCasts S6x32
  shapeCasts_S256x6_S256x6x1 : S256x6.ShapeCasts S256x6x1
  shapeCasts_S256x6x1_S256x6x1 : S256x6x1.ShapeCasts S256x6x1
  broadcasts_S256x6x1_S256x6x32 : S256x6x1.Broadcasts S256x6x32
  shapeCasts_S6x32_S1x6x32 : S6x32.ShapeCasts S1x6x32
  shapeCasts_S1x6x32_S1x6x32 : S1x6x32.ShapeCasts S1x6x32
  broadcasts_S1x6x32_S256x6x32 : S1x6x32.Broadcasts S256x6x32
  reduces_S256x6x32_S256x6 : S256x6x32.Reduces [2] S256x6
  inb_S6x256_S6x256_0_0 : ∀ a, (![0, 0] : Fin 2 → Nat) a + S6x256.size a ≤ S6x256.size a
  h_S6x256 : 0 < S6x256.numel
  shapeCasts_S6x256_S6x256 : S6x256.ShapeCasts S6x256
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  transposes_S256x6x32_p0_2_1_S256x32x6 : S256x6x32.Transposes [0, 2, 1] S256x32x6
  shapeCasts_S256x32x6_S8192x6 : S256x32x6.ShapeCasts S8192x6
  broadcasts_S1x256_S8192x256 : S1x256.Broadcasts S8192x256
  shapeCasts_S8192x256_S256x32x256 : S8192x256.ShapeCasts S256x32x256
  reduces_S256x32x256_S256x256 : S256x32x256.Reduces [1] S256x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32_S32_0 : ∀ a, (![0] : Fin 1 → Nat) a + S32.size a ≤ S32.size a
  h_S32 : 0 < S32.numel
  shapeCasts_S32_S1x32 : S32.ShapeCasts S1x32
  broadcasts_S1x32_S256x32 : S1x32.Broadcasts S256x32
  reduces_S256x32_S256 : S256x32.Reduces [1] S256
  shapeCasts_S256_S256x1 : S256.ShapeCasts S256x1
  broadcasts_S256x1_S256x32 : S256x1.Broadcasts S256x32
  shapeCasts_S256x32_S256x32x1 : S256x32.ShapeCasts S256x32x1
  broadcasts_S256x32x1_S256x32x256 : S256x32x1.Broadcasts S256x32x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x6_S6x256_S256x256_1_0_0_1_n_n_wf : DotDims.WF S256x6 S6x256 S256x256 [1] [0] [0] [1] [] []
  dot_S8192x6_S6x256_S8192x256_1_0_0_1_n_n_wf : DotDims.WF S8192x6 S6x256 S8192x256 [1] [0] [0] [1] [] []
  dot_S256x256_S256x32_S256x32_1_0_0_1_n_n_wf : DotDims.WF S256x256 S256x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x6.size a ≤ S1x8192x6.size a
  hwx0_0 : ∀ i : grid0.Coords, EltTy.bits .f32 = 32 ∨ (Rect.block (s := S1x8192x6) S1x256x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6x32.size a ≤ S1x6x32.size a
  hwx0_1 : ∀ i : grid0.Coords, EltTy.bits .f32 = 32 ∨ (Rect.block (s := S1x6x32) S1x6x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x256.size a ≤ S6x256.size a
  hwx0_2 : ∀ i : grid0.Coords, EltTy.bits .f32 = 32 ∨ (Rect.block (s := S6x256) S6x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x256.size a ≤ S6x256.size a
  hwx0_4 : ∀ i : grid0.Coords, EltTy.bits .f32 = 32 ∨ (Rect.block (s := S6x256) S6x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x256.size a ≤ S6x256.size a
  hwx0_6 : ∀ i : grid0.Coords, EltTy.bits .f32 = 32 ∨ (Rect.block (s := S6x256) S6x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x32.size a ≤ S256x32.size a
  hwx0_8 : ∀ i : grid0.Coords, EltTy.bits .f32 = 32 ∨ (Rect.block (s := S256x32) S256x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x256.size a ≤ S1x8192x256.size a
  hwx0_10 : ∀ i : grid0.Coords, EltTy.bits .f32 = 32 ∨ (Rect.block (s := S1x8192x256) S1x256x256.size (cc0_transform_10 i) (hinb0_10 i)).WholeWords (EltTy.packing .f32)

variable [Facts₀]

def dot_S256x6_S6x256_S256x256_1_0_0_1_n_n : DotDims S256x6 S6x256 S256x256 where
  lhsContracting := [1]
  rhsContracting := [0]
  lhsNonContracting := [0]
  rhsNonContracting := [1]
  lhsBatch := []
  rhsBatch := []
  wf := dot_S256x6_S6x256_S256x256_1_0_0_1_n_n_wf
def dot_S8192x6_S6x256_S8192x256_1_0_0_1_n_n : DotDims S8192x6 S6x256 S8192x256 where
  lhsContracting := [1]
  rhsContracting := [0]
  lhsNonContracting := [0]
  rhsNonContracting := [1]
  lhsBatch := []
  rhsBatch := []
  wf := dot_S8192x6_S6x256_S8192x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf

abbrev win0_0 : Pipeline.Window sig grid0 :=
  Pipeline.Window.ofSpec (Memref.whole main_v0) S1x256x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S6x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S6x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S6x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x256x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1x6x8192 : Shape := ⟨3, ![1, 6, 8192]⟩
abbrev S256x6 : Shape := ⟨2, ![256, 6]⟩
abbrev S256 : Shape := ⟨1, ![256]⟩
abbrev S32x256 : Shape := ⟨2, ![32, 256]⟩
abbrev S32 : Shape := ⟨1, ![32]⟩
abbrev S1x8192x6 : Shape := ⟨3, ![1, 8192, 6]⟩
abbrev S1x8192x8192 : Shape := ⟨3, ![1, 8192, 8192]⟩
abbrev S_ : Shape := ⟨0, ![]⟩
abbrev S1x8192 : Shape := ⟨2, ![1, 8192]⟩
abbrev S1x8192x1 : Shape := ⟨3, ![1, 8192, 1]⟩
abbrev S1x1x8192 : Shape := ⟨3, ![1, 1, 8192]⟩
abbrev S8192 : Shape := ⟨1, ![8192]⟩
abbrev S1x8192x32 : Shape := ⟨3, ![1, 8192, 32]⟩
abbrev S1 : Shape := ⟨1, ![1]⟩
abbrev S1x1x1 : Shape := ⟨3, ![1, 1, 1]⟩
abbrev S1x8192x32x1 : Shape := ⟨4, ![1, 8192, 32, 1]⟩
abbrev S1x8192x32x2 : Shape := ⟨4, ![1, 8192, 32, 2]⟩
abbrev S1x8192x32x6 : Shape := ⟨4, ![1, 8192, 32, 6]⟩
abbrev S1x8192x1x6 : Shape := ⟨4, ![1, 8192, 1, 6]⟩
abbrev S1x8192x1x256 : Shape := ⟨4, ![1, 8192, 1, 256]⟩
abbrev S1x1x1x256 : Shape := ⟨4, ![1, 1, 1, 256]⟩
abbrev S1x8192x32x256 : Shape := ⟨4, ![1, 8192, 32, 256]⟩
abbrev S1x8192x256 : Shape := ⟨3, ![1, 8192, 256]⟩
abbrev S1x8192x1x32 : Shape := ⟨4, ![1, 8192, 1, 32]⟩
abbrev S1x1x1x32 : Shape := ⟨4, ![1, 1, 1, 32]⟩
abbrev S1x8192x1x1 : Shape := ⟨4, ![1, 8192, 1, 1]⟩

abbrev nBuf : Space → Nat
  | .hbm => 128
  | .vmem => 0
  | .smem => 0
  | _ => 0

abbrev bufTy : (tb : Table) → Fin (tcTables nBuf tb) → BufTy
  | .hbm, ⟨0, _⟩ => ⟨S1x6x8192, .f32⟩
  | .hbm, ⟨1, _⟩ => ⟨S1x6x8192, .f32⟩
  | .hbm, ⟨2, _⟩ => ⟨S256x6, .f32⟩
  | .hbm, ⟨3, _⟩ => ⟨S256, .f32⟩
  | .hbm, ⟨4, _⟩ => ⟨S256x6, .f32⟩
  | .hbm, ⟨5, _⟩ => ⟨S256, .f32⟩
  | .hbm, ⟨6, _⟩ => ⟨S256x6, .f32⟩
  | .hbm, ⟨7, _⟩ => ⟨S256, .f32⟩
  | .hbm, ⟨8, _⟩ => ⟨S32x256, .f32⟩
  | .hbm, ⟨9, _⟩ => ⟨S32, .f32⟩
  | .hbm, ⟨10, _⟩ => ⟨S1x8192x6, .f32⟩
  | .hbm, ⟨11, _⟩ => ⟨S1x8192x6, .f32⟩
  | .hbm, ⟨12, _⟩ => ⟨S1x8192x8192, .f32⟩
  | .hbm, ⟨13, _⟩ => ⟨S_, .f32⟩
  | .hbm, ⟨14, _⟩ => ⟨S1x8192x8192, .f32⟩
  | .hbm, ⟨15, _⟩ => ⟨S1x8192x8192, .f32⟩
  | .hbm, ⟨16, _⟩ => ⟨S1x8192x6, .f32⟩
  | .hbm, ⟨17, _⟩ => ⟨S_, .f32⟩
  | .hbm, ⟨18, _⟩ => ⟨S1x8192, .f32⟩
  | .hbm, ⟨19, _⟩ => ⟨S1x8192x1, .f32⟩
  | .hbm, ⟨20, _⟩ => ⟨S1x8192x8192, .f32⟩
  | .hbm, ⟨21, _⟩ => ⟨S1x8192x8192, .f32⟩
  | .hbm, ⟨22, _⟩ => ⟨S1x8192x6, .f32⟩
  | .hbm, ⟨23, _⟩ => ⟨S_, .f32⟩
  | .hbm, ⟨24, _⟩ => ⟨S1x8192, .f32⟩
  | .hbm, ⟨25, _⟩ => ⟨S1x1x8192, .f32⟩
  | .hbm, ⟨26, _⟩ => ⟨S1x8192x8192, .f32⟩
  | .hbm, ⟨27, _⟩ => ⟨S1x8192x8192, .f32⟩
  | .hbm, ⟨28, _⟩ => ⟨S8192, .i32⟩
  | .hbm, ⟨29, _⟩ => ⟨S1x8192x8192, .i32⟩
  | .hbm, ⟨30, _⟩ => ⟨S_, .f32⟩
  | .hbm, ⟨31, _⟩ => ⟨S1x8192x8192, .f32⟩
  | .hbm, ⟨32, _⟩ => ⟨S1x8192x8192, .i1⟩
  | .hbm, ⟨33, _⟩ => ⟨S_, .i32⟩
  | .hbm, ⟨34, _⟩ => ⟨S_, .i32⟩
  | .hbm, ⟨35, _⟩ => ⟨S1x8192x8192, .i32⟩
  | .hbm, ⟨36, _⟩ => ⟨S1x8192x8192, .i32⟩
  | .hbm, ⟨37, _⟩ => ⟨S1x8192x8192, .i32⟩
  | .hbm, ⟨38, _⟩ => ⟨S1x8192x32, .i32⟩
  | .hbm, ⟨39, _⟩ => ⟨S_, .i32⟩
  | .hbm, ⟨40, _⟩ => ⟨S1x8192x32, .i32⟩
  | .hbm, ⟨41, _⟩ => ⟨S1x8192x32, .i1⟩
  | .hbm, ⟨42, _⟩ => ⟨S1x8192x1, .i32⟩
  | .hbm, ⟨43, _⟩ => ⟨S1x8192x32, .i32⟩
  | .hbm, ⟨44, _⟩ => ⟨S1x8192x32, .i32⟩
  | .hbm, ⟨45, _⟩ => ⟨S1, .i32⟩
  | .hbm, ⟨46, _⟩ => ⟨S1x1x1, .i32⟩
  | .hbm, ⟨47, _⟩ => ⟨S_, .i32⟩
  | .hbm, ⟨48, _⟩ => ⟨S1x1x1, .i32⟩
  | .hbm, ⟨49, _⟩ => ⟨S1x1x1, .i1⟩
  | .hbm, ⟨50, _⟩ => ⟨S_, .i32⟩
  | .hbm, ⟨51, _⟩ => ⟨S1x1x1, .i32⟩
  | .hbm, ⟨52, _⟩ => ⟨S1x1x1, .i32⟩
  | .hbm, ⟨53, _⟩ => ⟨S1x1x1, .i32⟩
  | .hbm, ⟨54, _⟩ => ⟨S_, .i32⟩
  | .hbm, ⟨55, _⟩ => ⟨S1x8192x32, .i32⟩
  | .hbm, ⟨56, _⟩ => ⟨S1x8192x32, .i1⟩
  | .hbm, ⟨57, _⟩ => ⟨S_, .i32⟩
  | .hbm, ⟨58, _⟩ => ⟨S1x8192x32, .i32⟩
  | .hbm, ⟨59, _⟩ => ⟨S1x8192x32, .i32⟩
  | .hbm, ⟨60, _⟩ => ⟨S1x8192x32, .i32⟩
  | .hbm, ⟨61, _⟩ => ⟨S1x8192x32, .i32⟩
  | .hbm, ⟨62, _⟩ => ⟨S1x8192x32x1, .i32⟩
  | .hbm, ⟨63, _⟩ => ⟨S1x8192x32x1, .i32⟩
  | .hbm, ⟨64, _⟩ => ⟨S1x8192x32x2, .i32⟩
  | .hbm, ⟨65, _⟩ => ⟨S1x8192x32x6, .f32⟩
  | .hbm, ⟨66, _⟩ => ⟨S1x8192x1x6, .f32⟩
  | .hbm, ⟨67, _⟩ => ⟨S1x8192x32x6, .f32⟩
  | .hbm, ⟨68, _⟩ => ⟨S1x8192x32x6, .f32⟩
  | .hbm, ⟨69, _⟩ => ⟨S1x8192x32x6, .f32⟩
  | .hbm, ⟨70, _⟩ => ⟨S1x8192x1x6, .f32⟩
  | .hbm, ⟨71, _⟩ => ⟨S_, .f32⟩
  | .hbm, ⟨72, _⟩ => ⟨S1x8192x6, .f32⟩
  | .hbm, ⟨73, _⟩ => ⟨S1x8192x1x6, .f32⟩
  | .hbm, ⟨74, _⟩ => ⟨S1x8192x1x6, .f32⟩
  | .hbm, ⟨75, _⟩ => ⟨S1x8192x1x256, .f32⟩
  | .hbm, ⟨76, _⟩ => ⟨S1x1x1x256, .f32⟩
  | .hbm, ⟨77, _⟩ => ⟨S1x8192x1x256, .f32⟩
  | .hbm, ⟨78, _⟩ => ⟨S1x8192x1x256, .f32⟩
  | .hbm, ⟨79, _⟩ => ⟨S_, .f32⟩
  | .hbm, ⟨80, _⟩ => ⟨S1x8192x1x256, .f32⟩
  | .hbm, ⟨81, _⟩ => ⟨S1x8192x1x256, .f32⟩
  | .hbm, ⟨82, _⟩ => ⟨S1x8192x32x6, .f32⟩
  | .hbm, ⟨83, _⟩ => ⟨S1x8192x32x256, .f32⟩
  | .hbm, ⟨84, _⟩ => ⟨S1x1x1x256, .f32⟩
  | .hbm, ⟨85, _⟩ => ⟨S1x8192x32x256, .f32⟩
  | .hbm, ⟨86, _⟩ => ⟨S1x8192x32x256, .f32⟩
  | .hbm, ⟨87, _⟩ => ⟨S_, .f32⟩
  | .hbm, ⟨88, _⟩ => ⟨S1x8192x32x256, .f32⟩
  | .hbm, ⟨89, _⟩ => ⟨S1x8192x32x256, .f32⟩
  | .hbm, ⟨90, _⟩ => ⟨S1x8192x32x256, .f32⟩
  | .hbm, ⟨91, _⟩ => ⟨S1x1x1x256, .f32⟩
  | .hbm, ⟨92, _⟩ => ⟨S1x8192x32x256, .f32⟩
  | .hbm, ⟨93, _⟩ => ⟨S1x8192x32x256, .f32⟩
  | .hbm, ⟨94, _⟩ => ⟨S_, .f32⟩
  | .hbm, ⟨95, _⟩ => ⟨S1x8192x32x256, .f32⟩
  | .hbm, ⟨96, _⟩ => ⟨S1x8192x32x256, .f32⟩
  | .hbm, ⟨97, _⟩ => ⟨S_, .f32⟩
  | .hbm, ⟨98, _⟩ => ⟨S1x8192x256, .f32⟩
  | .hbm, ⟨99, _⟩ => ⟨S1x8192x1x256, .f32⟩
  | .hbm, ⟨100, _⟩ => ⟨S1x8192x1x256, .f32⟩
  | .hbm, ⟨101, _⟩ => ⟨S_, .f32⟩
  | .hbm, ⟨102, _⟩ => ⟨S1x8192x256, .f32⟩
  | .hbm, ⟨103, _⟩ => ⟨S1x8192x1x256, .f32⟩
  | .hbm, ⟨104, _⟩ => ⟨S1x8192x1x256, .f32⟩
  | .hbm, ⟨105, _⟩ => ⟨S1x8192x1x32, .f32⟩
  | .hbm, ⟨106, _⟩ => ⟨S1x1x1x32, .f32⟩
  | .hbm, ⟨107, _⟩ => ⟨S1x8192x1x32, .f32⟩
  | .hbm, ⟨108, _⟩ => ⟨S1x8192x1x32, .f32⟩
  | .hbm, ⟨109, _⟩ => ⟨S_, .f32⟩
  | .hbm, ⟨110, _⟩ => ⟨S1x8192x1x32, .f32⟩
  | .hbm, ⟨111, _⟩ => ⟨S1x8192x1x32, .f32⟩
  | .hbm, ⟨112, _⟩ => ⟨S_, .f32⟩
  | .hbm, ⟨113, _⟩ => ⟨S1x8192x1, .f32⟩
  | .hbm, ⟨114, _⟩ => ⟨S_, .f32⟩
  | .hbm, ⟨115, _⟩ => ⟨S1x8192x1, .f32⟩
  | .hbm, ⟨116, _⟩ => ⟨S1x8192x1, .f32⟩
  | .hbm, ⟨117, _⟩ => ⟨S1x8192x1x1, .f32⟩
  | .hbm, ⟨118, _⟩ => ⟨S1x8192x1x32, .f32⟩
  | .hbm, ⟨119, _⟩ => ⟨S1x8192x1x32, .f32⟩
  | .hbm, ⟨120, _⟩ => ⟨S1x8192x1x32, .f32⟩
  | .hbm, ⟨121, _⟩ => ⟨S_, .f32⟩
  | .hbm, ⟨122, _⟩ => ⟨S1x8192x1, .f32⟩
  | .hbm, ⟨123, _⟩ => ⟨S1x8192x1x1, .f32⟩
  | .hbm, ⟨124, _⟩ => ⟨S1x8192x1x32, .f32⟩
  | .hbm, ⟨125, _⟩ => ⟨S1x8192x1x32, .f32⟩
  | .hbm, ⟨126, _⟩ => ⟨S1x8192x1x256, .f32⟩
  | .hbm, ⟨127, _⟩ => ⟨S1x8192x256, .f32⟩
  | _, _ => ⟨S1x6x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call3_cst : Ref sig .tc := ⟨.hbm, 79, rfl⟩
abbrev main_call3_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call4_cst : Ref sig .tc := ⟨.hbm, 87, rfl⟩
abbrev main_call4_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call5_cst : Ref sig .tc := ⟨.hbm, 94, rfl⟩
abbrev main_call5_v0 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_10 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call6_cst : Ref sig .tc := ⟨.hbm, 109, rfl⟩
abbrev main_call6_v0 : Ref sig .tc := ⟨.hbm, 110, rfl⟩
abbrev main_v77 : Ref sig .tc := ⟨.hbm, 111, rfl⟩
abbrev main_cst_11 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_13 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩

abbrev nD : Nat := 1
abbrev τ : Topo := Topo.v7x

variable {F : FTy → Type} [FloatOps F]

class Facts₀ : Prop where
  transposes_S1x6x8192_S1x8192x6_0_2_1 : S1x6x8192.Transposes [0, 2, 1] S1x8192x6
  bcast_S_S1x8192x8192 : S_.BroadcastsInDim S1x8192x8192 (![] : Fin 0 → Fin S1x8192x8192.rank)
  reducesTo_S1x8192x6_S1x8192_d2 : S1x8192x6.ReducesTo [2] S1x8192
  h_S_ : 0 < S_.numel
  bcast_S1x8192_S1x8192x1_0_1 : S1x8192.BroadcastsInDim S1x8192x1 (![0, 1] : Fin 2 → Fin S1x8192x1.rank)
  bcast_S1x8192x1_S1x8192x8192_0_1_2 : S1x8192x1.BroadcastsInDim S1x8192x8192 (![0, 1, 2] : Fin 3 → Fin S1x8192x8192.rank)
  bcast_S1x8192_S1x1x8192_0_2 : S1x8192.BroadcastsInDim S1x1x8192 (![0, 2] : Fin 2 → Fin S1x1x8192.rank)
  bcast_S1x1x8192_S1x8192x8192_0_1_2 : S1x1x8192.BroadcastsInDim S1x8192x8192 (![0, 1, 2] : Fin 3 → Fin S1x8192x8192.rank)
  bcast_S8192_S1x8192x8192_2 : S8192.BroadcastsInDim S1x8192x8192 (![2] : Fin 1 → Fin S1x8192x8192.rank)
  slices_S1x8192x8192_S1x8192x32_0_0_0 : S1x8192x8192.Slices ![0, 0, 0] S1x8192x32
  bcast_S_S1x8192x32 : S_.BroadcastsInDim S1x8192x32 (![] : Fin 0 → Fin S1x8192x32.rank)
  slices_S1x8192x32_S1x8192x1_0_0_0 : S1x8192x32.Slices ![0, 0, 0] S1x8192x1
  bcast_S1x8192x1_S1x8192x32_0_1_2 : S1x8192x1.BroadcastsInDim S1x8192x32 (![0, 1, 2] : Fin 3 → Fin S1x8192x32.rank)
  bcast_S1_S1x1x1_0 : S1.BroadcastsInDim S1x1x1 (![0] : Fin 1 → Fin S1x1x1.rank)
  bcast_S_S1x1x1 : S_.BroadcastsInDim S1x1x1 (![] : Fin 0 → Fin S1x1x1.rank)
  bcast_S1x1x1_S1x8192x32_0_1_2 : S1x1x1.BroadcastsInDim S1x8192x32 (![0, 1, 2] : Fin 3 → Fin S1x8192x32.rank)
  bcast_S1x8192x32_S1x8192x32x1_0_1_2 : S1x8192x32.BroadcastsInDim S1x8192x32x1 (![0, 1, 2] : Fin 3 → Fin S1x8192x32x1.rank)
  concatenates_S1x8192x32x1_S1x8192x32x1_S1x8192x32x2_d3 : Shape.Concatenates [S1x8192x32x1, S1x8192x32x1] S1x8192x32x2 3
  bcast_S1x8192x6_S1x8192x1x6_0_1_3 : S1x8192x6.BroadcastsInDim S1x8192x1x6 (![0, 1, 3] : Fin 3 → Fin S1x8192x1x6.rank)
  bcast_S1x8192x1x6_S1x8192x32x6_0_1_2_3 : S1x8192x1x6.BroadcastsInDim S1x8192x32x6 (![0, 1, 2, 3] : Fin 4 → Fin S1x8192x32x6.rank)
  reducesTo_S1x8192x32x6_S1x8192x6_d2 : S1x8192x32x6.ReducesTo [2] S1x8192x6
  bcast_S256_S1x1x1x256_3 : S256.BroadcastsInDim S1x1x1x256 (![3] : Fin 1 → Fin S1x1x1x256.rank)
  bcast_S1x1x1x256_S1x8192x1x256_0_1_2_3 : S1x1x1x256.BroadcastsInDim S1x8192x1x256 (![0, 1, 2, 3] : Fin 4 → Fin S1x8192x1x256.rank)
  bcast_S_S1x8192x1x256 : S_.BroadcastsInDim S1x8192x1x256 (![] : Fin 0 → Fin S1x8192x1x256.rank)
  bcast_S1x1x1x256_S1x8192x32x256_0_1_2_3 : S1x1x1x256.BroadcastsInDim S1x8192x32x256 (![0, 1, 2, 3] : Fin 4 → Fin S1x8192x32x256.rank)
  bcast_S_S1x8192x32x256 : S_.BroadcastsInDim S1x8192x32x256 (![] : Fin 0 → Fin S1x8192x32x256.rank)
  reducesTo_S1x8192x32x256_S1x8192x256_d2 : S1x8192x32x256.ReducesTo [2] S1x8192x256
  bcast_S1x8192x256_S1x8192x1x256_0_1_3 : S1x8192x256.BroadcastsInDim S1x8192x1x256 (![0, 1, 3] : Fin 3 → Fin S1x8192x1x256.rank)
  bcast_S32_S1x1x1x32_3 : S32.BroadcastsInDim S1x1x1x32 (![3] : Fin 1 → Fin S1x1x1x32.rank)
  bcast_S1x1x1x32_S1x8192x1x32_0_1_2_3 : S1x1x1x32.BroadcastsInDim S1x8192x1x32 (![0, 1, 2, 3] : Fin 4 → Fin S1x8192x1x32.rank)
  bcast_S_S1x8192x1x32 : S_.BroadcastsInDim S1x8192x1x32 (![] : Fin 0 → Fin S1x8192x1x32.rank)
  reducesTo_S1x8192x1x32_S1x8192x1_d3 : S1x8192x1x32.ReducesTo [3] S1x8192x1
  bcast_S_S1x8192x1 : S_.BroadcastsInDim S1x8192x1 (![] : Fin 0 → Fin S1x8192x1.rank)
  bcast_S1x8192x1_S1x8192x1x1_0_1_2 : S1x8192x1.BroadcastsInDim S1x8192x1x1 (![0, 1, 2] : Fin 3 → Fin S1x8192x1x1.rank)
  bcast_S1x8192x1x1_S1x8192x1x32_0_1_2_3 : S1x8192x1x1.BroadcastsInDim S1x8192x1x32 (![0, 1, 2, 3] : Fin 4 → Fin S1x8192x1x32.rank)
  shapeCasts_S1x8192x1x256_S1x8192x256 : S1x8192x1x256.ShapeCasts S1x8192x256
  dot_S1x8192x6_S1x8192x6_S1x8192x8192_2_2_1_1_0_0_wf : DotDims.WF S1x8192x6 S1x8192x6 S1x8192x8192 [2] [2] [1] [1] [0] [0]
  gather_S1x8192x6_S1x8192x32x2_S1x8192x32x6_3_01_n_n_01_3_116_wf : GatherDims.WF S1x8192x6 S1x8192x32x2 S1x8192x32x6 [3] [0, 1] [] [0, 1] [] 3 ![1, 1, 6]
  dot_S1x8192x1x6_S256x6_S1x8192x1x256_3_1_012_0_n_n_wf : DotDims.WF S1x8192x1x6 S256x6 S1x8192x1x256 [3] [1] [0, 1, 2] [0] [] []
  dot_S1x8192x32x6_S256x6_S1x8192x32x256_3_1_012_0_n_n_wf : DotDims.WF S1x8192x32x6 S256x6 S1x8192x32x256 [3] [1] [0, 1, 2] [0] [] []
  dot_S1x8192x1x256_S32x256_S1x8192x1x32_3_1_012_0_n_n_wf : DotDims.WF S1x8192x1x256 S32x256 S1x8192x1x32 [3] [1] [0, 1, 2] [0] [] []
  dot_S1x8192x1x32_S1x8192x32x256_S1x8192x1x256_3_2_2_3_01_01_wf : DotDims.WF S1x8192x1x32 S1x8192x32x256 S1x8192x1x256 [3] [2] [2] [3] [0, 1] [0, 1]

variable [Facts₀]

def dot_S1x8192x6_S1x8192x6_S1x8192x8192_2_2_1_1_0_0 : DotDims S1x8192x6 S1x8192x6 S1x8192x8192 where
  lhsContracting := [2]
  rhsContracting := [2]
  lhsNonContracting := [1]
  rhsNonContracting := [1]
  lhsBatch := [0]
  rhsBatch := [0]
  wf := dot_S1x8192x6_S1x8192x6_S1x8192x8192_2_2_1_1_0_0_wf
def comparator_i32_d2 : BitVec 32 → BitVec 32 → BitVec 1 :=
  fun l r =>
    let v1 := IntOp.cmpi .slt l r
    v1
def gather_S1x8192x6_S1x8192x32x2_S1x8192x32x6_3_01_n_n_01_3_116 : GatherDims S1x8192x6 S1x8192x32x2 S1x8192x32x6 where
  offsetDims := [3]
  collapsedSliceDims := [0, 1]
  operandBatchingDims := []
  startIndicesBatchingDims := []
  startIndexMap := [0, 1]
  indexVectorDim := 3
  sliceSizes := ![1, 1, 6]
  wf := gather_S1x8192x6_S1x8192x32x2_S1x8192x32x6_3_01_n_n_01_3_116_wf
def dot_S1x8192x1x6_S256x6_S1x8192x1x256_3_1_012_0_n_n : DotDims S1x8192x1x6 S256x6 S1x8192x1x256 where
  lhsContracting := [3]
  rhsContracting := [1]
  lhsNonContracting := [0, 1, 2]
  rhsNonContracting := [0]
  lhsBatch := []
  rhsBatch := []
  wf := dot_S1x8192x1x6_S256x6_S1x8192x1x256_3_1_012_0_n_n_wf
def dot_S1x8192x32x6_S256x6_S1x8192x32x256_3_1_012_0_n_n : DotDims S1x8192x32x6 S256x6 S1x8192x32x256 where
  lhsContracting := [3]
  rhsContracting := [1]
  lhsNonContracting := [0, 1, 2]
  rhsNonContracting := [0]
  lhsBatch := []
  rhsBatch := []
  wf := dot_S1x8192x32x6_S256x6_S1x8192x32x256_3_1_012_0_n_n_wf
def dot_S1x8192x1x256_S32x256_S1x8192x1x32_3_1_012_0_n_n : DotDims S1x8192x1x256 S32x256 S1x8192x1x32 where
  lhsContracting := [3]
  rhsContracting := [1]
  lhsNonContracting := [0, 1, 2]
  rhsNonContracting := [0]
  lhsBatch := []
  rhsBatch := []
  wf := dot_S1x8192x1x256_S32x256_S1x8192x1x32_3_1_012_0_n_n_wf
def dot_S1x8192x1x32_S1x8192x32x256_S1x8192x1x256_3_2_2_3_01_01 : DotDims S1x8192x1x32 S1x8192x32x256 S1x8192x1x256 where
  lhsContracting := [3]
  rhsContracting := [2]
  lhsNonContracting := [2]
  rhsNonContracting := [3]
  lhsBatch := [0, 1]
  rhsBatch := [0, 1]
  wf := dot_S1x8192x1x32_S1x8192x32x256_S1x8192x1x256_3_2_2_3_01_01_wf

class Facts : Prop extends Facts₀ where

variable [Facts]
-- ==== Proof.LibSoftmaxRow.lean ====
/-
  The max-shifted softmax of one row of extended reals, as a function of the row alone.

  For a row z_0 … z_{n-1} and a starting value c, the row maximum is the fold of max from c over the row, in any
  order (max is commutative and associative). The softmax entry at q is
      exp (z_q − M) / ∑_k exp (z_k − M),      M the row maximum.
  Taking the maximum with c once more changes nothing, since the fold already starts from c.
-/
import Idealize.ShloMosaic.PureOps.Ideal
import Mathlib.Data.Finset.Fold

noncomputable section

namespace Cert.Lib

open Idealize.ShloMosaic

/-- The maximum of a row, folded from the starting value `c`. -/
def rowMax {n : ℕ} (c : EReal) (z : Fin n → EReal) : EReal :=
  (Finset.univ : Finset (Fin n)).fold max c z

/-- The fold starts from `c`, so it is at least `c`: one more maximum with `c` is absorbed. -/
theorem max_rowMax {n : ℕ} (c : EReal) (z : Fin n → EReal) : max c (rowMax c z) = rowMax c z :=
  max_eq_right ((Finset.le_fold_max c).mpr (Or.inl le_rfl))

/-- The softmax of a row, shifted by its maximum: exp (z_q − M) over the sum of the exp (z_k − M). -/
def softmaxRow {n : ℕ} (c : EReal) (z : Fin n → EReal) (q : Fin n) : EReal :=
  Ideal.div (Ideal.exp (z q - rowMax c z)) (∑ k : Fin n, Ideal.exp (z k - rowMax c z))

end Cert.Lib

end
-- ==== Proof.Spec.lean ====
/-
  The attention-weighted neighbourhood aggregation, entry by entry, over the extended reals.

  One query has six channels xq_c and sees 32 neighbours with channels nb_c(k).  For channel c and neighbour k,
      edge c k = log (xq_c − nb_c(k)).
  The query is shifted by the sum of its edges and sent through a first layer 6 → 256 with max(·, 0); every edge, with and
  without the neighbour added back, is sent through two more such layers (wn, bn) and (we, be); the three are combined as
      after1 + Σ_k evf k − Σ_k ef k,
  sent through a last layer 256 → 32, and the resulting 32 scores, one per neighbour, are turned into weights by the
  max-shifted softmax.  The result at q is the weighted sum over the neighbours of evf k q.

  In the whole array the queries x and the points ap are stored channel-major [1, 6, 8192], the three first layers' weights
  [256, 6], the last layer's [32, 256]; every query n sees the same 32 neighbours, the first 32 points.
-/
import Idealize.ShloMosaic.PureOps.Ideal
import Idealize.ShloMosaic.Lib.ValueIdx
import proofs.«108481_j68702296867335_2_alg».proof.Proof.LibSoftmaxRow

noncomputable section

namespace Cert.Bag

open Idealize.ShloMosaic Idealize.ShloMosaic.ValueIdx

/-- The starting value of the row maximum: the word of −∞. -/
abbrev negInf : EReal := Ideal.ofBits .f32 0xFF800000#32

/-! ## One query -/

section Core
variable (xq : Fin 6 → EReal) (nb : Fin 6 → Fin 32 → EReal)
  (w1 : Fin 6 → Fin 256 → EReal) (b1 : Fin 256 → EReal) (we : Fin 6 → Fin 256 → EReal) (be : Fin 256 → EReal)
  (wn : Fin 6 → Fin 256 → EReal) (bn : Fin 256 → EReal) (w2 : Fin 256 → Fin 32 → EReal) (b2 : Fin 32 → EReal)

/-- log (xq_c − nb_c(k)). -/
def edge (c : Fin 6) (k : Fin 32) : EReal := Ideal.log (xq c - nb c k)

/-- The query shifted by the sum of its edges. -/
def shifted (c : Fin 6) : EReal := xq c + ∑ k : Fin 32, edge xq nb c k

/-- First layer on the shifted query. -/
def after1 (d : Fin 256) : EReal := max (∑ c : Fin 6, shifted xq nb c * w1 c d + b1 d) 0

/-- The layer (wn, bn) on edge + neighbour. -/
def evf (k : Fin 32) (d : Fin 256) : EReal := max (∑ c : Fin 6, (edge xq nb c k + nb c k) * wn c d + bn d) 0

/-- The layer (we, be) on the edge alone. -/
def ef (k : Fin 32) (d : Fin 256) : EReal := max (∑ c : Fin 6, edge xq nb c k * we c d + be d) 0

def after2 (d : Fin 256) : EReal :=
  after1 xq nb w1 b1 d + ∑ k : Fin 32, evf xq nb wn bn k d - ∑ k : Fin 32, ef xq nb we be k d

/-- The 32 scores. -/
def score (k : Fin 32) : EReal := max (∑ d : Fin 256, after2 xq nb w1 b1 we be wn bn d * w2 d k + b2 k) 0

/-- The attention weights: the max-shifted softmax of the scores. -/
def att (k : Fin 32) : EReal := Cert.Lib.softmaxRow negInf (score xq nb w1 b1 we be wn bn w2 b2) k

/-- The result at q. -/
def out (q : Fin 256) : EReal := ∑ k : Fin 32, att xq nb w1 b1 we be wn bn w2 b2 k * evf xq nb wn bn k q

end Core

/-! ## The whole array -/

abbrev SX : Shape := ⟨3, ![1, 6, 8192]⟩
abbrev SW : Shape := ⟨2, ![256, 6]⟩
abbrev SB : Shape := ⟨1, ![256]⟩
abbrev SW2 : Shape := ⟨2, ![32, 256]⟩
abbrev SB2 : Shape := ⟨1, ![32]⟩
abbrev SO : Shape := ⟨3, ![1, 8192, 256]⟩

/-- Neighbour k of any query is point k. -/
def pt (k : Fin 32) : Fin 8192 := ⟨k.val, by have := k.isLt; omega⟩

/-- The result array: entry (0, n, q) is the one-query result for query n, read from the stored layouts. -/
def G (x ap : SX.Idx → EReal) (w1 : SW.Idx → EReal) (b1 : SB.Idx → EReal) (we : SW.Idx → EReal) (be : SB.Idx → EReal)
    (wn : SW.Idx → EReal) (bn : SB.Idx → EReal) (w2 : SW2.Idx → EReal) (b2 : SB2.Idx → EReal) : SO.Idx → EReal :=
  fun i => out (fun c => x (ix3 (0 : Fin 1) c (i 1))) (fun c k => ap (ix3 (0 : Fin 1) c (pt k)))
    (fun c d => w1 (ix2 d c)) (fun d => b1 (ix1 d)) (fun c d => we (ix2 d c)) (fun d => be (ix1 d))
    (fun c d => wn (ix2 d c)) (fun d => bn (ix1 d)) (fun d k => w2 (ix2 k d)) (fun k => b2 (ix1 k)) (i 2)

end Cert.Bag

end
-- ==== Proof.LibRank3.lean ====
/-
  Stacks of matrices read at an index given by coordinates.

  A rank-three array [a, b, c] is a stack of `a` matrices. The layout operations that move between
  such a stack, its rows flattened [a, b·c], and the columns and rows of its matrices are read here
  at indices written `ix2 r l`, `ix3 r i j`:

  * a cast [a, n] → [a, b, c] with n = b·c reads (r, i, j) at (r, i·c + j), and back;
  * a cast [a, b] → [a, b, 1] (a column per matrix) and [a, b] → [a, 1, b] (a row per matrix), and back;
  * a broadcast of one matrix [1, b, c] over the stack, of a column [a, b, 1] along the rows, of a row
    [a, 1, c] down the columns;
  * the slice of one entry of the last axis, [a, b, c] → [a, b, 1];
  * four columns [a, b, 1] laid side by side into [a, b, 4]: entry (r, i, c) is column c's entry (r, i);
  * the sum over the last axis, at the extended reals: entry (r, i) is the sum over j of (r, i, j).
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- [a, n] cast to [a, b, c], n = b·c: entry (r, i, j) is the flat row's entry i·c + j. -/
theorem cast_flat_to_stack {a n b c : ℕ} (hn : n = b * c) (x : (⟨2, ![a, n]⟩ : Shape).Idx → α)
    (h : (⟨2, ![a, n]⟩ : Shape).ShapeCasts ⟨3, ![a, b, c]⟩) (r : Fin a) (i : Fin b) (j : Fin c) (hl : i.val * c + j.val < n) :
    shapeCast ⟨3, ![a, b, c]⟩ x h (ix3 r i j) = x (ix2 r ⟨i.val * c + j.val, hl⟩) :=
  shapeCast_apply x h _ _ (by
    rw [Shape.rowMajor_val_three, Shape.rowMajor_val_two]
    show r.val * n + (i.val * c + j.val) = (r.val * b + i.val) * c + j.val
    subst hn; ring)

/-- [a, b, c] cast to [a, n], n = b·c: the flat row's entry i·c + j is entry (r, i, j). -/
theorem cast_stack_to_flat {a n b c : ℕ} (hn : n = b * c) (x : (⟨3, ![a, b, c]⟩ : Shape).Idx → α)
    (h : (⟨3, ![a, b, c]⟩ : Shape).ShapeCasts ⟨2, ![a, n]⟩) (r : Fin a) (i : Fin b) (j : Fin c) (hl : i.val * c + j.val < n) :
    shapeCast ⟨2, ![a, n]⟩ x h (ix2 r ⟨i.val * c + j.val, hl⟩) = x (ix3 r i j) :=
  shapeCast_apply x h _ _ (by
    rw [Shape.rowMajor_val_three, Shape.rowMajor_val_two]
    show (r.val * b + i.val) * c + j.val = r.val * n + (i.val * c + j.val)
    subst hn; ring)

/-- [a, b] cast to [a, b, 1]: a column per matrix. -/
theorem cast_to_col {a b : ℕ} (x : (⟨2, ![a, b]⟩ : Shape).Idx → α)
    (h : (⟨2, ![a, b]⟩ : Shape).ShapeCasts ⟨3, ![a, b, 1]⟩) (r : Fin a) (i : Fin b) (u : Fin 1) :
    shapeCast ⟨3, ![a, b, 1]⟩ x h (ix3 r i u) = x (ix2 r i) :=
  shapeCast_apply x h _ _ (by
    have hu : u.val = 0 := by omega
    rw [Shape.rowMajor_val_three, Shape.rowMajor_val_two]
    show r.val * b + i.val = (r.val * b + i.val) * 1 + u.val
    rw [hu]; ring)

/-- [a, b, 1] cast to [a, b]. -/
theorem cast_of_col {a b : ℕ} (x : (⟨3, ![a, b, 1]⟩ : Shape).Idx → α)
    (h : (⟨3, ![a, b, 1]⟩ : Shape).ShapeCasts ⟨2, ![a, b]⟩) (r : Fin a) (i : Fin b) :
    shapeCast ⟨2, ![a, b]⟩ x h (ix2 r i) = x (ix3 r i (0 : Fin 1)) :=
  shapeCast_apply x h _ _ (by
    rw [Shape.rowMajor_val_three, Shape.rowMajor_val_two]
    show (r.val * b + i.val) * 1 + 0 = r.val * b + i.val
    ring)

/-- [a, b] cast to [a, 1, b]: a row per matrix. -/
theorem cast_to_row {a b : ℕ} (x : (⟨2, ![a, b]⟩ : Shape).Idx → α)
    (h : (⟨2, ![a, b]⟩ : Shape).ShapeCasts ⟨3, ![a, 1, b]⟩) (r : Fin a) (u : Fin 1) (j : Fin b) :
    shapeCast ⟨3, ![a, 1, b]⟩ x h (ix3 r u j) = x (ix2 r j) :=
  shapeCast_apply x h _ _ (by
    have hu : u.val = 0 := by omega
    rw [Shape.rowMajor_val_three, Shape.rowMajor_val_two]
    show r.val * b + j.val = (r.val * 1 + u.val) * b + j.val
    rw [hu]; ring)

/-- One matrix [1, b, c] broadcast over a stack. -/
theorem bcast_matrix {a b c : ℕ} (x : (⟨3, ![1, b, c]⟩ : Shape).Idx → α) (h : (⟨3, ![1, b, c]⟩ : Shape).Broadcasts ⟨3, ![a, b, c]⟩)
    (r : Fin a) (i : Fin b) (j : Fin c) : broadcastTo ⟨3, ![a, b, c]⟩ x h (ix3 r i j) = x (ix3 (0 : Fin 1) i j) := by
  refine broadcastTo_apply x h (ix3 r i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A column [a, b, 1] broadcast along the rows of each matrix. -/
theorem bcast_col {a b c : ℕ} (x : (⟨3, ![a, b, 1]⟩ : Shape).Idx → α) (h : (⟨3, ![a, b, 1]⟩ : Shape).Broadcasts ⟨3, ![a, b, c]⟩)
    (r : Fin a) (i : Fin b) (j : Fin c) : broadcastTo ⟨3, ![a, b, c]⟩ x h (ix3 r i j) = x (ix3 r i (0 : Fin 1)) := by
  refine broadcastTo_apply x h (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- A row [a, 1, c] broadcast down the columns of each matrix. -/
theorem bcast_row {a b c : ℕ} (x : (⟨3, ![a, 1, c]⟩ : Shape).Idx → α) (h : (⟨3, ![a, 1, c]⟩ : Shape).Broadcasts ⟨3, ![a, b, c]⟩)
    (r : Fin a) (i : Fin b) (j : Fin c) : broadcastTo ⟨3, ![a, b, c]⟩ x h (ix3 r i j) = x (ix3 r (0 : Fin 1) j) := by
  refine broadcastTo_apply x h (ix3 r i j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- The slice of entry `o` of the last axis. -/
theorem slice_last {a b c : ℕ} (o : Fin c) (x : (⟨3, ![a, b, c]⟩ : Shape).Idx → α)
    (h : (⟨3, ![a, b, c]⟩ : Shape).Slices ![0, 0, o.val] ⟨3, ![a, b, 1]⟩) (r : Fin a) (i : Fin b) (u : Fin 1) :
    extractStridedSlice ⟨3, ![a, b, 1]⟩ ![0, 0, o.val] x h (ix3 r i u) = x (ix3 r i o) := by
  refine extractStridedSlice_apply _ x h (ix3 r i u) (ix3 r i o) fun ax => ?_
  match ax with
  | ⟨0, _⟩ => show r.val = 0 + r.val; omega
  | ⟨1, _⟩ => show i.val = 0 + i.val; omega
  | ⟨2, _⟩ => show o.val = o.val + u.val; omega

/-- The sum over the last axis of a stack, at the extended reals. -/
theorem sum_last {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (r : Fin a) (i : Fin b) :
    multiReduction .add [(2 : Fin 3)] ⟨2, ![a, b]⟩ src acc h hφ hacc (ix2 r i) = ∑ j : Fin c, src (ix3 r i j) := by
  refine (Ideal.multiReduction_add_single src acc h hφ hacc (ix2 r i)).trans ?_
  refine Finset.sum_congr rfl fun j _ => congrArg src (funext fun ax => Fin.ext ?_)
  rw [Shape.Reduces.lift_val]
  match ax with
  | ⟨0, _⟩ => rfl
  | ⟨1, _⟩ => rfl
  | ⟨2, _⟩ => rfl

/-- Four columns [a, b, 1] laid side by side along the last axis: entry (r, i, c) is column `c`'s entry (r, i). -/
theorem concat4_cols {a b : ℕ} (x0 x1 x2 x3 : (⟨3, ![a, b, 1]⟩ : Shape).Idx → α)
    (h : Shape.Concatenates (([⟨⟨3, ![a, b, 1]⟩, x0⟩, ⟨⟨3, ![a, b, 1]⟩, x1⟩, ⟨⟨3, ![a, b, 1]⟩, x2⟩, ⟨⟨3, ![a, b, 1]⟩, x3⟩] :
      List ((s : Shape) × (s.Idx → α))).map (·.1)) ⟨3, ![a, b, 4]⟩ (2 : Fin 3))
    (r : Fin a) (i : Fin b) (c : Fin 4) :
    concatenate ⟨3, ![a, b, 4]⟩ (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i c)
      = (![x0, x1, x2, x3] c) (ix3 r i (0 : Fin 1)) := by
  have hi : ∀ (c : Fin 4) (bx : Fin 3), bx.cast (rfl : (3 : ℕ) = 3) ≠ (2 : Fin 3) →
      ((ix3 r i (0 : Fin 1) : (⟨3, ![a, b, 1]⟩ : Shape).Idx) bx).val = ((ix3 r i c : (⟨3, ![a, b, 4]⟩ : Shape).Idx) (bx.cast rfl)).val := by
    intro c bx hb
    match bx with
    | ⟨0, _⟩ => rfl
    | ⟨1, _⟩ => rfl
    | ⟨2, _⟩ => exact absurd rfl hb
  match c with
  | ⟨0, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨0, hc⟩) 0 (by simp) ⟨3, ![a, b, 1]⟩ x0 rfl rfl 0 rfl (ix3 r i (0 : Fin 1)) (hi _) rfl
  | ⟨1, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨1, hc⟩) 1 (by simp) ⟨3, ![a, b, 1]⟩ x1 rfl rfl 1 rfl (ix3 r i (0 : Fin 1)) (hi _) rfl
  | ⟨2, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨2, hc⟩) 2 (by simp) ⟨3, ![a, b, 1]⟩ x2 rfl rfl 2 rfl (ix3 r i (0 : Fin 1)) (hi _) rfl
  | ⟨3, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨3, hc⟩) 3 (by simp) ⟨3, ![a, b, 1]⟩ x3 rfl rfl 3 rfl (ix3 r i (0 : Fin 1)) (hi _) rfl

end Cert.LibRank3
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.KernelTile.lean ====
/-
  One tile of 256 queries: the kernel body's arithmetic, read entry by entry, is the one-query function.

  The tile holds 256 queries with six channels each, X (0, r, c), and sees the 32 neighbours channel-major, Nb (0, c, k).
  Row r of every intermediate value depends on query r alone:
    * the edges log (X_r,c − Nb_c,k), a stack [256, 6, 32];
    * the query shifted by the sum of its edges, through a first 6 → 256 layer with max(·, 0);
    * every (query, neighbour) pair through two more 6 → 256 layers: the stack [256, 6, 32] is transposed to
      [256, 32, 6] and flattened to 8192 rows, row 32·r + k being the pair (r, k); the result [8192, 256] is cut back
      into [256, 32, 256];
    * the combination after1 + Σ_k evf − Σ_k ef, a last 256 → 32 layer, and the max-shifted softmax of each row;
    * the weighted sum over the neighbours.
  The narrowing and widening format changes are the identity on extended reals, a matrix product into a zero accumulator
  is the plain sum over the contracted axis, a sum over one axis is the finite sum over its coordinates, and a row
  maximum from the word of −∞ is the fold of max from −∞.
-/
import proofs.«108481_j68702296867335_2_alg».proof.Proof.Gen.KernelIdeal.Skeleton
import proofs.«108481_j68702296867335_2_alg».proof.Proof.Spec
import proofs.«108481_j68702296867335_2_alg».proof.Proof.LibRank3
import proofs.«108481_j68702296867335_2_alg».proof.Proof.LibPlainDot
import proofs.«108481_j68702296867335_2_alg».proof.Proof.LibColumn
import Idealize.ShloMosaic.Lib.ValueLayout
import Idealize.ShloMosaic.PureOps.Ideal.Laws

noncomputable section

namespace Cert.Bag.Ker

open Cert.KernelIdeal Cert.KernelIdeal.Gen Idealize.ShloMosaic Idealize.ShloMosaic.ValueIdx

/-! ## Layout facts, independent of the program -/

section Layout
variable {α : Type}

/-- A stack [a, b, c] flattened to [n, c], n = a·b: row r·b + k of the flat array is matrix r's row k. -/
theorem flatten_rows {a b c n : ℕ} (x : (⟨3, ![a, b, c]⟩ : Shape).Idx → α)
    (h : (⟨3, ![a, b, c]⟩ : Shape).ShapeCasts ⟨2, ![n, c]⟩) (r : Fin a) (k : Fin b) (j : Fin c)
    (hl : r.val * b + k.val < n) :
    shapeCast ⟨2, ![n, c]⟩ x h (ix2 ⟨r.val * b + k.val, hl⟩ j) = x (ix3 r k j) :=
  shapeCast_apply x h _ _ (by
    rw [Shape.rowMajor_val_three, Shape.rowMajor_val_two]
    rfl)

/-- A flat array [n, c] cut into a stack [a, b, c], n = a·b: matrix r's row k is row r·b + k of the flat array. -/
theorem stack_rows {a b c n : ℕ} (x : (⟨2, ![n, c]⟩ : Shape).Idx → α)
    (h : (⟨2, ![n, c]⟩ : Shape).ShapeCasts ⟨3, ![a, b, c]⟩) (r : Fin a) (k : Fin b) (j : Fin c)
    (hl : r.val * b + k.val < n) :
    shapeCast ⟨3, ![a, b, c]⟩ x h (ix3 r k j) = x (ix2 ⟨r.val * b + k.val, hl⟩ j) :=
  shapeCast_apply x h _ _ (by
    rw [Shape.rowMajor_val_three, Shape.rowMajor_val_two]
    rfl)

/-- The sum over the middle axis of a stack, at the extended reals: entry (r, j) is the sum over k of (r, k, j). -/
theorem sum_mid {a b c : ℕ} {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (r : Fin a) (j : Fin c) :
    multiReduction .add [(1 : Fin 3)] ⟨2, ![a, c]⟩ src acc h hφ hacc (ix2 r j) = ∑ k : Fin b, src (ix3 r k j) := by
  refine (Ideal.multiReduction_add_single src acc h hφ hacc (ix2 r j)).trans ?_
  refine Finset.sum_congr rfl fun k _ => congrArg src (funext fun ax => Fin.ext ?_)
  rw [Shape.Reduces.lift_val]
  match ax with
  | ⟨0, _⟩ => rfl
  | ⟨1, _⟩ => rfl
  | ⟨2, _⟩ => rfl

/-- The sum of each row of a matrix, at the extended reals. -/
theorem sum_row {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  rw [Shape.Reduces.lift_val]
  match ax with
  | ⟨0, _⟩ => rfl
  | ⟨1, _⟩ => rfl

/-- The maximum of each row of a matrix, at the extended reals: the fold of max from the starting word's value. -/
theorem max_row {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold max (Ideal.ofBits φ acc) · (Finset.univ : Finset (Fin b))) ?_
  refine funext fun k => congrArg src (funext fun ax => Fin.ext ?_)
  rw [Shape.Reduces.lift_val]
  match ax with
  | ⟨0, _⟩ => rfl
  | ⟨1, _⟩ => rfl

end Layout

/-! ## A layer: product with a weight matrix, a bias on every row, and max(·, 0) -/

section Layer

/-- A layer [M, K] × [K, N] → [M, N]: the product into a zero accumulator (both operands passed through the
    narrowing format change, the identity here), the bias [N] repeated on every row, then the maximum with 0.
    At (p, q) it is max (Σ_k l (p, k) · w (k, q) + b q, 0). -/
theorem layer_at {M K N : ℕ} (wf : DotDims.WF ⟨2, ![M, K]⟩ ⟨2, ![K, N]⟩ ⟨2, ![M, N]⟩ [1] [0] [0] [1] [] [])
    (l : FVec Ideal ⟨2, ![M, K]⟩ .f32) (w : FVec Ideal ⟨2, ![K, N]⟩ .f32) (b : FVec Ideal ⟨1, ![N]⟩ .f32)
    (hb16 : FTy.bits .bf16 < FTy.bits .f32)
    (hww : (⟨2, ![K, N]⟩ : Shape).ShapeCasts ⟨2, ![K, N]⟩) (hb1 : (⟨1, ![N]⟩ : Shape).ShapeCasts ⟨2, ![1, N]⟩)
    (hbb : (⟨2, ![1, N]⟩ : Shape).Broadcasts ⟨2, ![M, N]⟩) (p : Fin M) (q : Fin N) :
    maximumf
        (addf
          (matmul (Cert.Lib.plainDot M K N wf) none (truncf .bf16 l hb16)
            (truncf .bf16 (shapeCast ⟨2, ![K, N]⟩ w hww) hb16) (constant (F := Ideal) ⟨2, ![M, N]⟩ .f32 0x00000000#32))
          (broadcastTo ⟨2, ![M, N]⟩ (shapeCast ⟨2, ![1, N]⟩ b hb1) hbb))
        (broadcast ⟨2, ![M, N]⟩ (Scalar.ofBits (F := Ideal) .f32 0x00000000#32)) (ix2 p q)
      = max (∑ k : Fin K, l (ix2 p k) * w (ix2 k q) + b (ix1 q)) 0 := by
  have e1 := Cert.Lib.matmul_zero_apply wf none (truncf .bf16 l hb16) (truncf .bf16 (shapeCast ⟨2, ![K, N]⟩ w hww) hb16) p q
  have e2 : broadcastTo ⟨2, ![M, N]⟩ (shapeCast ⟨2, ![1, N]⟩ b hb1) hbb (ix2 p q) = b (ix1 q) :=
    (broadcastTo_1b_ab_apply _ hbb p q).trans (shapeCast_a_1a_apply b hb1 (0 : Fin 1) q)
  have e3 : ∀ k : Fin K, (truncf .bf16 l hb16) (ix2 p k) * (truncf .bf16 (shapeCast ⟨2, ![K, N]⟩ w hww) hb16) (ix2 k q)
      = l (ix2 p k) * w (ix2 k q) := fun k => by
    show l (ix2 p k) * shapeCast ⟨2, ![K, N]⟩ w hww (ix2 k q) = _
    rw [shapeCast_self]
  show max (FloatOps.matmul (Cert.Lib.plainDot M K N wf) none (truncf .bf16 l hb16)
        (truncf .bf16 (shapeCast ⟨2, ![K, N]⟩ w hww) hb16) (constant (F := Ideal) ⟨2, ![M, N]⟩ .f32 0x00000000#32) (ix2 p q)
      + broadcastTo ⟨2, ![M, N]⟩ (shapeCast ⟨2, ![1, N]⟩ b hb1) hbb (ix2 p q)) (Ideal.ofBits .f32 0x00000000#32) = _
  rw [e1, e2, Ideal.ofBits_zero_f32, Finset.sum_congr rfl fun k _ => e3 k]

end Layer

/-! ## The one-query data read from the tile's blocks -/

/-- Query r's six channels. -/
abbrev xqOf (X : Vec Ideal S1x256x6 .f32) (r : Fin 256) : Fin 6 → EReal := fun c => X (ix3 (0 : Fin 1) r c)
/-- The 32 neighbours, channel-major. -/
abbrev nbOf (Nb : Vec Ideal S1x6x32 .f32) : Fin 6 → Fin 32 → EReal := fun c k => Nb (ix3 (0 : Fin 1) c k)
/-- A first-layer weight matrix, stored (channel, feature). -/
abbrev wOf (W : Vec Ideal S6x256 .f32) : Fin 6 → Fin 256 → EReal := fun c d => W (ix2 c d)
/-- A first-layer bias. -/
abbrev bOf (B : Vec Ideal S256 .f32) : Fin 256 → EReal := fun d => B (ix1 d)
/-- The last layer's weight matrix, stored (feature, neighbour). -/
abbrev w2Of (W2 : Vec Ideal S256x32 .f32) : Fin 256 → Fin 32 → EReal := fun d k => W2 (ix2 d k)
/-- The last layer's bias. -/
abbrev b2Of (B2 : Vec Ideal S32 .f32) : Fin 32 → EReal := fun k => B2 (ix1 k)

/-- Row 32·r + k of the 8192 flattened rows is below 8192. -/
theorem row_lt (r : Fin 256) (k : Fin 32) : r.val * 32 + k.val < 8192 := by
  have := r.isLt; have := k.isLt; omega

/-! ## The edges -/

section Edge
variable (X : Vec Ideal S1x256x6 .f32) (Nb : Vec Ideal S1x6x32 .f32)

/-- The tile's queries as a matrix [256, 6]. -/
theorem pay2_at (r : Fin 256) (c : Fin 6) : k0_pay2 (F := Ideal) X (ix2 r c) = X (ix3 (0 : Fin 1) r c) :=
  shapeCast_1ab_ab_apply X shapeCasts_S1x256x6_S256x6 r c

/-- The neighbours repeated for every query. -/
theorem pay3_at (r : Fin 256) (c : Fin 6) (k : Fin 32) : k0_pay3 (F := Ideal) Nb (ix3 r c k) = Nb (ix3 (0 : Fin 1) c k) := by
  unfold k0_pay3
  refine (Cert.LibRank3.bcast_matrix _ broadcasts_S1x6x32_S256x6x32 r c k).trans ?_
  rw [shapeCast_self, shapeCast_shapeCast]

/-- The edge of query r, channel c, neighbour k. -/
theorem edge_at (r : Fin 256) (c : Fin 6) (k : Fin 32) :
    k0_pay4 (F := Ideal) X Nb (ix3 r c k) = Cert.Bag.edge (xqOf X r) (nbOf Nb) c k := by
  have e1 : broadcastTo S256x6x32
      (shapeCast S256x6x1 (shapeCast S256x6x1 (k0_pay2 (F := Ideal) X) shapeCasts_S256x6_S256x6x1) shapeCasts_S256x6x1_S256x6x1)
      broadcasts_S256x6x1_S256x6x32 (ix3 r c k) = X (ix3 (0 : Fin 1) r c) := by
    refine (Cert.LibRank3.bcast_col _ broadcasts_S256x6x1_S256x6x32 r c k).trans ?_
    rw [shapeCast_self]
    exact (Cert.LibRank3.cast_to_col _ shapeCasts_S256x6_S256x6x1 r c (0 : Fin 1)).trans (pay2_at X r c)
  show Ideal.log (broadcastTo S256x6x32
      (shapeCast S256x6x1 (shapeCast S256x6x1 (k0_pay2 (F := Ideal) X) shapeCasts_S256x6_S256x6x1) shapeCasts_S256x6x1_S256x6x1)
      broadcasts_S256x6x1_S256x6x32 (ix3 r c k) - k0_pay3 (F := Ideal) Nb (ix3 r c k)) = _
  rw [e1, pay3_at]
  rfl

end Edge

/-! ## The first layer on the shifted query -/

section After1
variable (X : Vec Ideal S1x256x6 .f32) (Nb : Vec Ideal S1x6x32 .f32) (W1 : Vec Ideal S6x256 .f32) (B1 : Vec Ideal S256 .f32)

/-- The query plus the sum of its edges. -/
theorem shifted_at (r : Fin 256) (c : Fin 6) :
    addf (k0_pay2 (F := Ideal) X)
        (multiReduction .add [2] S256x6 (k0_pay4 (F := Ideal) X Nb) 0x00000000#32 reduces_S256x6x32_S256x6 (.inl rfl) rfl) (ix2 r c)
      = Cert.Bag.shifted (xqOf X r) (nbOf Nb) c := by
  show k0_pay2 (F := Ideal) X (ix2 r c)
      + multiReduction .add [2] S256x6 (k0_pay4 (F := Ideal) X Nb) 0x00000000#32 reduces_S256x6x32_S256x6 (.inl rfl) rfl (ix2 r c) = _
  refine congrArg₂ (· + ·) (pay2_at X r c) ?_
  refine (Cert.LibRank3.sum_last (k0_pay4 (F := Ideal) X Nb) 0x00000000#32 reduces_S256x6x32_S256x6 (.inl rfl) rfl r c).trans ?_
  exact Finset.sum_congr rfl fun k _ => edge_at X Nb r c k

/-- The first layer's value for query r, feature d. -/
theorem after1_at (r d : Fin 256) :
    k0_pay5 (F := Ideal) X Nb W1 B1 (ix2 r d) = Cert.Bag.after1 (xqOf X r) (nbOf Nb) (wOf W1) (bOf B1) d := by
  refine (layer_at dot_S256x6_S6x256_S256x256_1_0_0_1_n_n_wf
    (addf (k0_pay2 (F := Ideal) X)
      (multiReduction .add [2] S256x6 (k0_pay4 (F := Ideal) X Nb) 0x00000000#32 reduces_S256x6x32_S256x6 (.inl rfl) rfl))
    W1 B1 bitsLt_bf16_f32 shapeCasts_S6x256_S6x256 shapeCasts_S256_S1x256 broadcasts_S1x256_S256x256 r d).trans ?_
  unfold Cert.Bag.after1
  refine congrArg (fun s => max (s + B1 (ix1 d)) 0) ?_
  exact Finset.sum_congr rfl fun c _ => congrArg (· * W1 (ix2 c d)) (shifted_at X Nb r c)

end After1

/-! ## A 6 → 256 layer on every (query, neighbour) pair -/

section Pairs

/-- The layer on the 8192 flattened rows of a stack [256, 6, 32] (transposed to [256, 32, 6] first). -/
def flatLayer (v : FVec Ideal S256x6x32 .f32) (W : Vec Ideal S6x256 .f32) (B : Vec Ideal S256 .f32) : FVec Ideal S8192x256 .f32 :=
  maximumf
    (addf
      (matmul dot_S8192x6_S6x256_S8192x256_1_0_0_1_n_n none
        (truncf .bf16 (shapeCast S8192x6 (transpose S256x32x6 [0, 2, 1] v transposes_S256x6x32_p0_2_1_S256x32x6) shapeCasts_S256x32x6_S8192x6) bitsLt_bf16_f32)
        (truncf .bf16 (shapeCast S6x256 W shapeCasts_S6x256_S6x256) bitsLt_bf16_f32)
        (constant S8192x256 .f32 0x00000000#32))
      (broadcastTo S8192x256 (shapeCast S1x256 B shapeCasts_S256_S1x256) broadcasts_S1x256_S8192x256))
    (broadcast S8192x256 (Scalar.ofBits .f32 0x00000000#32))

/-- Row 32·r + k of the layer is the pair (r, k): max (Σ_c v (r, c, k) · W (c, d) + B d, 0). -/
theorem flatLayer_at (v : FVec Ideal S256x6x32 .f32) (W : Vec Ideal S6x256 .f32) (B : Vec Ideal S256 .f32)
    (r : Fin 256) (k : Fin 32) (d : Fin 256) :
    flatLayer v W B (ix2 ⟨r.val * 32 + k.val, row_lt r k⟩ d) = max (∑ c : Fin 6, v (ix3 r c k) * W (ix2 c d) + B (ix1 d)) 0 := by
  refine (layer_at dot_S8192x6_S6x256_S8192x256_1_0_0_1_n_n_wf
    (shapeCast S8192x6 (transpose S256x32x6 [0, 2, 1] v transposes_S256x6x32_p0_2_1_S256x32x6) shapeCasts_S256x32x6_S8192x6)
    W B bitsLt_bf16_f32 shapeCasts_S6x256_S6x256 shapeCasts_S256_S1x256 broadcasts_S1x256_S8192x256
    ⟨r.val * 32 + k.val, row_lt r k⟩ d).trans ?_
  refine congrArg (fun s => max (s + B (ix1 d)) 0) ?_
  refine Finset.sum_congr rfl fun c _ => congrArg (· * W (ix2 c d)) ?_
  refine (flatten_rows _ shapeCasts_S256x32x6_S8192x6 r k c (row_lt r k)).trans ?_
  exact transpose_ix3_021_apply v transposes_S256x6x32_p0_2_1_S256x32x6 r k c

/-- The layer cut back into a stack [256, 32, 256]: entry (r, k, d). -/
theorem stackLayer_at (v : FVec Ideal S256x6x32 .f32) (W : Vec Ideal S6x256 .f32) (B : Vec Ideal S256 .f32)
    (r : Fin 256) (k : Fin 32) (d : Fin 256) :
    shapeCast S256x32x256 (flatLayer v W B) shapeCasts_S8192x256_S256x32x256 (ix3 r k d)
      = max (∑ c : Fin 6, v (ix3 r c k) * W (ix2 c d) + B (ix1 d)) 0 :=
  (stack_rows _ shapeCasts_S8192x256_S256x32x256 r k d (row_lt r k)).trans (flatLayer_at v W B r k d)

variable (X : Vec Ideal S1x256x6 .f32) (Nb : Vec Ideal S1x6x32 .f32) (Wn : Vec Ideal S6x256 .f32) (Bn : Vec Ideal S256 .f32)

/-- The (wn, bn) layer on edge + neighbour, for query r, neighbour k, feature d. -/
theorem evf_at (r : Fin 256) (k : Fin 32) (d : Fin 256) :
    k0_pay6 (F := Ideal) X Nb Wn Bn (ix3 r k d) = Cert.Bag.evf (xqOf X r) (nbOf Nb) (wOf Wn) (bOf Bn) k d := by
  have e : k0_pay6 (F := Ideal) X Nb Wn Bn (ix3 r k d)
      = shapeCast S256x32x256 (flatLayer (addf (k0_pay4 (F := Ideal) X Nb) (k0_pay3 (F := Ideal) Nb)) Wn Bn)
          shapeCasts_S8192x256_S256x32x256 (ix3 r k d) :=
    (stack_rows _ shapeCasts_S8192x256_S256x32x256 r k d (row_lt r k)).trans
      (stack_rows (flatLayer (addf (k0_pay4 (F := Ideal) X Nb) (k0_pay3 (F := Ideal) Nb)) Wn Bn)
        shapeCasts_S8192x256_S256x32x256 r k d (row_lt r k)).symm
  rw [e, stackLayer_at]
  unfold Cert.Bag.evf
  refine congrArg (fun s => max (s + Bn (ix1 d)) 0) ?_
  refine Finset.sum_congr rfl fun c _ => congrArg (· * Wn (ix2 c d)) ?_
  show k0_pay4 (F := Ideal) X Nb (ix3 r c k) + k0_pay3 (F := Ideal) Nb (ix3 r c k) = _
  rw [edge_at, pay3_at]

/-- The same value after the widening format change. -/
theorem evf_at' (r : Fin 256) (k : Fin 32) (d : Fin 256) :
    k0_pay7 (F := Ideal) X Nb Wn Bn (ix3 r k d) = Cert.Bag.evf (xqOf X r) (nbOf Nb) (wOf Wn) (bOf Bn) k d :=
  evf_at X Nb Wn Bn r k d

end Pairs

/-! ## The three branches combined, the scores, the softmax of each row, the weighted sum -/

section Tail
variable (v11 : FVec Ideal S256x6x32 .f32) (v24 : FVec Ideal S256x256 .f32) (v40 : FVec Ideal S256x32x256 .bf16)
  (v41 : FVec Ideal S256x32x256 .f32) (We : Vec Ideal S6x256 .f32) (Be : Vec Ideal S256 .f32)
  (W2 : Vec Ideal S256x32 .f32) (B2 : Vec Ideal S32 .f32)

/-- after1 + Σ_k evf − Σ_k ef, as a matrix [256, 256]: the (we, be) layer is applied to the edges here. -/
def comb : FVec Ideal S256x256 .f32 :=
  subf (addf v24 (multiReduction .add [1] S256x256 v41 0x00000000#32 reduces_S256x32x256_S256x256 (.inl rfl) rfl))
    (multiReduction .add [1] S256x256 (shapeCast S256x32x256 (flatLayer v11 We Be) shapeCasts_S8192x256_S256x32x256)
      0x00000000#32 reduces_S256x32x256_S256x256 (.inl rfl) rfl)

/-- The last layer 256 → 32 on the combination: the scores [256, 32]. -/
def scores : FVec Ideal S256x32 .f32 :=
  maximumf
    (addf
      (matmul dot_S256x256_S256x32_S256x32_1_0_0_1_n_n none
        (truncf .bf16 (comb v11 v24 v41 We Be) bitsLt_bf16_f32)
        (truncf .bf16 (shapeCast S256x32 W2 shapeCasts_S256x32_S256x32) bitsLt_bf16_f32)
        (constant S256x32 .f32 0x00000000#32))
      (broadcastTo S256x32 (shapeCast S1x32 B2 shapeCasts_S32_S1x32) broadcasts_S1x32_S256x32))
    (broadcast S256x32 (Scalar.ofBits .f32 0x00000000#32))

/-- One value per row [256], repeated along each row of [256, 32]. -/
def colOf (v : FVec Ideal S256 .f32) : FVec Ideal S256x32 .f32 :=
  broadcastTo S256x32 (shapeCast S256x1 v shapeCasts_S256_S256x1) broadcasts_S256x1_S256x32

/-- exp (z − the row's maximum), the maximum folded from the word of −∞. -/
def expShift (z : FVec Ideal S256x32 .f32) : FVec Ideal S256x32 .f32 :=
  exp (subf z (colOf (multiReduction .maximumf [1] S256 z 0xFF800000#32 reduces_S256x32_S256 (.inl rfl) rfl)))

/-- The max-shifted softmax of each row. -/
def softmax (z : FVec Ideal S256x32 .f32) : FVec Ideal S256x32 .f32 :=
  divf (expShift z) (colOf (multiReduction .add [1] S256 (expShift z) 0x00000000#32 reduces_S256x32_S256 (.inl rfl) rfl))

/-- Σ_k a (r, k) · v (r, k, q). -/
def wsum (a : FVec Ideal S256x32 .f32) (v : FVec Ideal S256x32x256 .bf16) : FVec Ideal S256x256 .f32 :=
  multiReduction .add [1] S256x256
    (extf .f32
      (mulf
        (broadcastTo S256x32x256 (shapeCast S256x32x1 (truncf .bf16 a bitsLt_bf16_f32) shapeCasts_S256x32_S256x32x1)
          broadcasts_S256x32x1_S256x32x256) v)
      bitsLt_bf16_f32)
    0x00000000#32 reduces_S256x32x256_S256x256 (.inl rfl) rfl

/-- The body's last value is the weighted sum of the softmax of the scores. -/
theorem pay8_eq : k0_pay8 (F := Ideal) v11 v24 v40 v41 We Be W2 B2 = wsum (softmax (scores v11 v24 v41 We Be W2 B2)) v40 := rfl

variable (xq : Fin 6 → EReal) (nb : Fin 6 → Fin 32 → EReal) (w1 : Fin 6 → Fin 256 → EReal) (b1 : Fin 256 → EReal)
  (wn : Fin 6 → Fin 256 → EReal) (bn : Fin 256 → EReal) (r : Fin 256)

/-- The combination at (r, d), given row r of its three inputs. -/
theorem comb_at (h11 : ∀ c k, v11 (ix3 r c k) = Cert.Bag.edge xq nb c k)
    (h24 : ∀ d, v24 (ix2 r d) = Cert.Bag.after1 xq nb w1 b1 d)
    (h41 : ∀ k d, v41 (ix3 r k d) = Cert.Bag.evf xq nb wn bn k d) (d : Fin 256) :
    comb v11 v24 v41 We Be (ix2 r d) = Cert.Bag.after2 xq nb w1 b1 (wOf We) (bOf Be) wn bn d := by
  show v24 (ix2 r d) + multiReduction .add [1] S256x256 v41 0x00000000#32 reduces_S256x32x256_S256x256 (.inl rfl) rfl (ix2 r d)
      - multiReduction .add [1] S256x256 (shapeCast S256x32x256 (flatLayer v11 We Be) shapeCasts_S8192x256_S256x32x256)
          0x00000000#32 reduces_S256x32x256_S256x256 (.inl rfl) rfl (ix2 r d) = _
  unfold Cert.Bag.after2
  refine congrArg₂ (· - ·) (congrArg₂ (· + ·) (h24 d) ?_) ?_
  · exact (sum_mid v41 0x00000000#32 reduces_S256x32x256_S256x256 (.inl rfl) rfl r d).trans
      (Finset.sum_congr rfl fun k _ => h41 k d)
  · refine (sum_mid _ 0x00000000#32 reduces_S256x32x256_S256x256 (.inl rfl) rfl r d).trans
      (Finset.sum_congr rfl fun k _ => ?_)
    rw [stackLayer_at]
    unfold Cert.Bag.ef
    exact congrArg (fun s => max (s + Be (ix1 d)) 0)
      (Finset.sum_congr rfl fun c _ => congrArg (· * We (ix2 c d)) (h11 c k))

/-- The score of neighbour k for query r. -/
theorem scores_at (h11 : ∀ c k, v11 (ix3 r c k) = Cert.Bag.edge xq nb c k)
    (h24 : ∀ d, v24 (ix2 r d) = Cert.Bag.after1 xq nb w1 b1 d)
    (h41 : ∀ k d, v41 (ix3 r k d) = Cert.Bag.evf xq nb wn bn k d) (k : Fin 32) :
    scores v11 v24 v41 We Be W2 B2 (ix2 r k)
      = Cert.Bag.score xq nb w1 b1 (wOf We) (bOf Be) wn bn (w2Of W2) (b2Of B2) k := by
  refine (layer_at dot_S256x256_S256x32_S256x32_1_0_0_1_n_n_wf (comb v11 v24 v41 We Be) W2 B2 bitsLt_bf16_f32
    shapeCasts_S256x32_S256x32 shapeCasts_S32_S1x32 broadcasts_S1x32_S256x32 r k).trans ?_
  unfold Cert.Bag.score
  exact congrArg (fun s => max (s + B2 (ix1 k)) 0)
    (Finset.sum_congr rfl fun d _ => congrArg (· * W2 (ix2 d k))
      (comb_at v11 v24 v41 We Be xq nb w1 b1 wn bn r h11 h24 h41 d))

/-- A repeated column read at (r, k) is the vector's entry r. -/
theorem colOf_at (v : FVec Ideal S256 .f32) (k : Fin 32) : colOf v (ix2 r k) = v (ix1 r) :=
  (Cert.Lib.broadcastTo_a1_ab_apply _ broadcasts_S256x1_S256x32 r k).trans
    (Cert.Lib.shapeCast_a_a1_apply v shapeCasts_S256_S256x1 r (0 : Fin 1))

variable (z : FVec Ideal S256x32 .f32) (zr : Fin 32 → EReal) (hz : ∀ k, z (ix2 r k) = zr k)
include hz

/-- Row r's maximum. -/
theorem rowMax_at :
    multiReduction .maximumf [1] S256 z 0xFF800000#32 reduces_S256x32_S256 (.inl rfl) rfl (ix1 r)
      = Cert.Lib.rowMax Cert.Bag.negInf zr := by
  refine (max_row z 0xFF800000#32 reduces_S256x32_S256 (.inl rfl) rfl r).trans ?_
  unfold Cert.Lib.rowMax
  exact congrArg (Finset.fold max Cert.Bag.negInf · Finset.univ) (funext hz)

/-- exp (z − maximum) at (r, k). -/
theorem expShift_at (k : Fin 32) : expShift z (ix2 r k) = Ideal.exp (zr k - Cert.Lib.rowMax Cert.Bag.negInf zr) := by
  show Ideal.exp (z (ix2 r k)
      - colOf (multiReduction .maximumf [1] S256 z 0xFF800000#32 reduces_S256x32_S256 (.inl rfl) rfl) (ix2 r k)) = _
  rw [colOf_at, rowMax_at r z zr hz, hz k]

/-- The softmax at (r, k). -/
theorem softmax_at (k : Fin 32) : softmax z (ix2 r k) = Cert.Lib.softmaxRow Cert.Bag.negInf zr k := by
  show Ideal.div (expShift z (ix2 r k))
      (colOf (multiReduction .add [1] S256 (expShift z) 0x00000000#32 reduces_S256x32_S256 (.inl rfl) rfl) (ix2 r k)) = _
  rw [colOf_at, expShift_at r z zr hz k]
  unfold Cert.Lib.softmaxRow
  refine congrArg (Ideal.div _) ?_
  exact (sum_row (expShift z) 0x00000000#32 reduces_S256x32_S256 (.inl rfl) rfl r).trans
    (Finset.sum_congr rfl fun k' _ => expShift_at r z zr hz k')

omit hz

/-- The weighted sum at (r, q), given row r of the weights and of the stack. -/
theorem wsum_at (a : FVec Ideal S256x32 .f32) (v : FVec Ideal S256x32x256 .bf16) (q : Fin 256) (ar ev : Fin 32 → EReal)
    (ha : ∀ k, a (ix2 r k) = ar k) (hv : ∀ k, v (ix3 r k q) = ev k) :
    wsum a v (ix2 r q) = ∑ k : Fin 32, ar k * ev k := by
  refine (sum_mid _ 0x00000000#32 reduces_S256x32x256_S256x256 (.inl rfl) rfl r q).trans
    (Finset.sum_congr rfl fun k _ => ?_)
  show broadcastTo S256x32x256 (shapeCast S256x32x1 (truncf .bf16 a bitsLt_bf16_f32) shapeCasts_S256x32_S256x32x1)
      broadcasts_S256x32x1_S256x32x256 (ix3 r k q) * v (ix3 r k q) = _
  refine congrArg₂ (· * ·) ?_ (hv k)
  refine (Cert.LibRank3.bcast_col _ broadcasts_S256x32x1_S256x32x256 r k q).trans ?_
  refine (Cert.LibRank3.cast_to_col _ shapeCasts_S256x32_S256x32x1 r k (0 : Fin 1)).trans ?_
  exact ha k

end Tail

/-! ## The tile -/

/-- Entry (0, r, q) of the value the body stores is the one-query result for query r at q. -/
theorem tile_out (X : Vec Ideal S1x256x6 .f32) (Nb : Vec Ideal S1x6x32 .f32) (W1 : Vec Ideal S6x256 .f32) (B1 : Vec Ideal S256 .f32)
    (We : Vec Ideal S6x256 .f32) (Be : Vec Ideal S256 .f32) (Wn : Vec Ideal S6x256 .f32) (Bn : Vec Ideal S256 .f32)
    (W2 : Vec Ideal S256x32 .f32) (B2 : Vec Ideal S32 .f32) (r q : Fin 256) :
    k0_pay1 (F := Ideal) (k0_pay8 (k0_pay4 X Nb) (k0_pay5 X Nb W1 B1) (k0_pay6 X Nb Wn Bn) (k0_pay7 X Nb Wn Bn) We Be W2 B2) (ix3 (0 : Fin 1) r q)
      = Cert.Bag.out (fun c => X (ix3 (0 : Fin 1) r c)) (fun c k => Nb (ix3 (0 : Fin 1) c k))
          (fun c d => W1 (ix2 c d)) (fun d => B1 (ix1 d)) (fun c d => We (ix2 c d)) (fun d => Be (ix1 d))
          (fun c d => Wn (ix2 c d)) (fun d => Bn (ix1 d)) (fun d k => W2 (ix2 d k)) (fun k => B2 (ix1 k)) q := by
  refine (shapeCast_ab_1ab_apply
    (k0_pay8 (F := Ideal) (k0_pay4 X Nb) (k0_pay5 X Nb W1 B1) (k0_pay6 X Nb Wn Bn) (k0_pay7 X Nb Wn Bn) We Be W2 B2)
    shapeCasts_S256x256_S1x256x256 (0 : Fin 1) r q).trans ?_
  rw [pay8_eq]
  exact wsum_at r _ _ q
    (Cert.Bag.att (xqOf X r) (nbOf Nb) (wOf W1) (bOf B1) (wOf We) (bOf Be) (wOf Wn) (bOf Bn) (w2Of W2) (b2Of B2))
    (fun k => Cert.Bag.evf (xqOf X r) (nbOf Nb) (wOf Wn) (bOf Bn) k q)
    (fun k => softmax_at r _ _
      (fun k' => scores_at _ _ _ We Be W2 B2 (xqOf X r) (nbOf Nb) (wOf W1) (bOf B1) (wOf Wn) (bOf Bn) r
        (fun c k'' => edge_at X Nb r c k'') (fun d => after1_at X Nb W1 B1 r d) (fun k'' d => evf_at' X Nb Wn Bn r k'' d) k') k)
    (fun k => evf_at X Nb Wn Bn r k q)

end Cert.Bag.Ker

end
-- ==== Proof.KernelValue.lean ====
/-
  From the tile to the array.  The region runs over 32 grid points; point t stages rows 256·t … 256·t + 255 of the
  transposed queries, the 32 first points (channel-major), the transposed weights and the biases, and writes back rows
  256·t … 256·t + 255 of the result.  Each staged block is read back as entries of the ARGUMENT arrays (the host transposes
  and the slice undone), so that what point t writes back is block t of the one whole-array function of the arguments, and
  the 32 blocks tile the result array.
-/
import proofs.«108481_j68702296867335_2_alg».proof.Proof.Gen.KernelIdeal.Value
import proofs.«108481_j68702296867335_2_alg».proof.Proof.Spec
import Idealize.ShloMosaic.Lib.Pipeline.Value
import Idealize.ShloMosaic.Lib.ValueIdx
import Idealize.ShloMosaic.Lib.StableHlo.Run

noncomputable section

namespace Cert.Bag.Ker

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's arithmetic on one tile is the one-query function, row by row (proved in its own module). -/
def TileSpec : Prop :=
  ∀ (X : Vec Ideal S1x256x6 .f32) (Nb : Vec Ideal S1x6x32 .f32) (W1 : Vec Ideal S6x256 .f32) (B1 : Vec Ideal S256 .f32)
    (We : Vec Ideal S6x256 .f32) (Be : Vec Ideal S256 .f32) (Wn : Vec Ideal S6x256 .f32) (Bn : Vec Ideal S256 .f32)
    (W2 : Vec Ideal S256x32 .f32) (B2 : Vec Ideal S32 .f32) (r q : Fin 256),
    k0_pay1 (F := Ideal) (k0_pay8 (k0_pay4 X Nb) (k0_pay5 X Nb W1 B1) (k0_pay6 X Nb Wn Bn) (k0_pay7 X Nb Wn Bn) We Be W2 B2) (ix3 (0 : Fin 1) r q)
      = Cert.Bag.out (fun c => X (ix3 (0 : Fin 1) r c)) (fun c k => Nb (ix3 (0 : Fin 1) c k))
          (fun c d => W1 (ix2 c d)) (fun d => B1 (ix1 d)) (fun c d => We (ix2 c d)) (fun d => Be (ix1 d))
          (fun c d => Wn (ix2 c d)) (fun d => Bn (ix1 d)) (fun d k => W2 (ix2 d k)) (fun k => B2 (ix1 k)) q

/-- The whole-array function at the launch contents of the ten arguments. -/
abbrev Gm (c : Dev nD) : S1x8192x256.Idx → EReal :=
  Cert.Bag.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays the region finds, as host operations of the arguments -/

theorem V_v0 (c : Dev nD) : (V m c main_v0 : S1x8192x6.Idx → EReal)
    = transpose S1x8192x6 [0, 2, 1] (m ((c : Thread nD τ).loc main_arg0)) transposes_S1x6x8192_S1x8192x6_0_2_1 := by
  dsimp only [Gen.V, Gen.hostOps0]; after_results

theorem V_v3 (c : Dev nD) : (V m c main_v3 : S1x6x32.Idx → EReal)
    = transpose S1x6x32 [0, 2, 1] (extractStridedSlice S1x32x6 ![0, 0, 0]
        (transpose S1x8192x6 [0, 2, 1] (m ((c : Thread nD τ).loc main_arg1)) transposes_S1x6x8192_S1x8192x6_0_2_1)
        slices_S1x8192x6_S1x32x6_0_0_0) transposes_S1x32x6_S1x6x32_0_2_1 := by
  dsimp only [Gen.V, Gen.hostOps0]; after_results

theorem V_v4 (c : Dev nD) : (V m c main_v4 : S6x256.Idx → EReal)
    = transpose S6x256 [1, 0] (m ((c : Thread nD τ).loc main_arg2)) transposes_S256x6_S6x256_1_0 := by
  dsimp only [Gen.V, Gen.hostOps0]; after_results

theorem V_v5 (c : Dev nD) : (V m c main_v5 : S6x256.Idx → EReal)
    = transpose S6x256 [1, 0] (m ((c : Thread nD τ).loc main_arg4)) transposes_S256x6_S6x256_1_0 := by
  dsimp only [Gen.V, Gen.hostOps0]; after_results

theorem V_v6 (c : Dev nD) : (V m c main_v6 : S6x256.Idx → EReal)
    = transpose S6x256 [1, 0] (m ((c : Thread nD τ).loc main_arg6)) transposes_S256x6_S6x256_1_0 := by
  dsimp only [Gen.V, Gen.hostOps0]; after_results

theorem V_v7 (c : Dev nD) : (V m c main_v7 : S256x32.Idx → EReal)
    = transpose S256x32 [1, 0] (m ((c : Thread nD τ).loc main_arg8)) transposes_S32x256_S256x32_1_0 := by
  dsimp only [Gen.V, Gen.hostOps0]; after_results

/-! ## The printed index maps over the grid -/

/-- Window 0 (the queries) and window 10 (the result) move one block of 256 rows per grid point; every other window stays
    at block 0. Decided over the 32 points. -/
theorem idx_facts : ∀ t : Fin cfg0.N,
    win0_0.index t (0 : Fin 3) = 0 ∧ win0_0.index t (1 : Fin 3) = t.val ∧ win0_0.index t (2 : Fin 3) = 0
    ∧ win0_10.index t (0 : Fin 3) = 0 ∧ win0_10.index t (1 : Fin 3) = t.val ∧ win0_10.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## Each staged block, read back as entries of the arguments -/

/-- The queries' block at point t: row r, channel ch is the argument's entry (0, ch, 256·t + r). -/
theorem blk_x (c : Dev nD) (t : Fin cfg0.N) (r : Fin 256) (ch : Fin 6) (n : Fin 8192) (hn : n.val = 256 * t.val + r.val) :
    (iblk m c 0 t : Vec Ideal S1x256x6 .f32) (ix3 (0 : Fin 1) r ch)
      = (m ((c : Thread nD τ).loc main_arg0) : S1x6x8192.Idx → EReal) (ix3 (0 : Fin 1) ch n) := by
  obtain ⟨e0, e1, e2, -⟩ := idx_facts t
  unfold iblk
  rw [View.read_apply]
  show (V m c main_v0 : S1x8192x6.Idx → EReal) _ = _
  rw [V_v0 m c]
  refine transpose_apply [0, 2, 1] _ _ _ (ix3 (0 : Fin 1) ch n) (fun b => ?_)
  match b with
  | ⟨0, _⟩ => show (0 : ℕ) = win0_0.index t (0 : Fin 3) * 1 + 1 * 0; rw [e0]
  | ⟨1, _⟩ => show n.val = win0_0.index t (1 : Fin 3) * 256 + 1 * r.val; rw [e1, hn]; omega
  | ⟨2, _⟩ => show ch.val = win0_0.index t (2 : Fin 3) * 6 + 1 * ch.val; rw [e2]; omega

/-- The neighbours' block (the same at every point): channel ch of neighbour k is the points' entry (0, ch, k). -/
theorem blk_nb (c : Dev nD) (t : Fin cfg0.N) (ch : Fin 6) (k : Fin 32) :
    (iblk m c 1 t : Vec Ideal S1x6x32 .f32) (ix3 (0 : Fin 1) ch k)
      = (m ((c : Thread nD τ).loc main_arg1) : S1x6x8192.Idx → EReal) (ix3 (0 : Fin 1) ch (Cert.Bag.pt k)) := by
  obtain ⟨a0, a1, a2, o0, o1, o2, n0, n1, n2, p0, p1, q0, r0, r1, s0, u0, u1, v0, w0, w1, z0⟩ := idx_facts t
  unfold iblk
  rw [View.read_apply]
  show (V m c main_v3 : S1x6x32.Idx → EReal) _ = _
  rw [V_v3 m c]
  refine (transpose_apply [0, 2, 1] _ _ _ (ix3 (0 : Fin 1) k ch) (fun b => ?_)).trans ?_
  · match b with
    | ⟨0, _⟩ => show (0 : ℕ) = win0_1.index t (0 : Fin 3) * 1 + 1 * 0; rw [n0]
    | ⟨1, _⟩ => show ch.val = win0_1.index t (1 : Fin 3) * 6 + 1 * ch.val; rw [n1]; omega
    | ⟨2, _⟩ => show k.val = win0_1.index t (2 : Fin 3) * 32 + 1 * k.val; rw [n2]; omega
  refine (extractStridedSlice_apply ![0, 0, 0] _ _ (ix3 (0 : Fin 1) k ch) (ix3 (0 : Fin 1) (Cert.Bag.pt k) ch) (fun a => ?_)).trans ?_
  · match a with
    | ⟨0, _⟩ => rfl
    | ⟨1, _⟩ => show k.val = 0 + k.val; omega
    | ⟨2, _⟩ => show ch.val = 0 + ch.val; omega
  exact transpose_apply [0, 2, 1] _ _ _ (ix3 (0 : Fin 1) ch (Cert.Bag.pt k)) (fun b => match b with
    | ⟨0, _⟩ => rfl
    | ⟨1, _⟩ => rfl
    | ⟨2, _⟩ => rfl)

/-- The first layer's weights, staged transposed: entry (ch, d) of the block is the argument's (d, ch). -/
theorem blk_w1 (c : Dev nD) (t : Fin cfg0.N) (ch : Fin 6) (d : Fin 256) :
    (iblk m c 2 t : Vec Ideal S6x256 .f32) (ix2 ch d)
      = (m ((c : Thread nD τ).loc main_arg2) : S256x6.Idx → EReal) (ix2 d ch) := by
  obtain ⟨a0, a1, a2, o0, o1, o2, n0, n1, n2, p0, p1, q0, r0, r1, s0, u0, u1, v0, w0, w1, z0⟩ := idx_facts t
  unfold iblk
  rw [View.read_apply]
  show (V m c main_v4 : S6x256.Idx → EReal) _ = _
  rw [V_v4 m c]
  refine transpose_apply [1, 0] _ _ _ (ix2 d ch) (fun b => ?_)
  match b with
  | ⟨0, _⟩ => show ch.val = win0_2.index t (0 : Fin 2) * 6 + 1 * ch.val; rw [p0]; omega
  | ⟨1, _⟩ => show d.val = win0_2.index t (1 : Fin 2) * 256 + 1 * d.val; rw [p1]; omega

/-- The first layer's bias. -/
theorem blk_b1 (c : Dev nD) (t : Fin cfg0.N) (d : Fin 256) :
    (iblk m c 3 t : Vec Ideal S256 .f32) (ix1 d) = (m ((c : Thread nD τ).loc main_arg3) : S256.Idx → EReal) (ix1 d) := by
  obtain ⟨a0, a1, a2, o0, o1, o2, n0, n1, n2, p0, p1, q0, r0, r1, s0, u0, u1, v0, w0, w1, z0⟩ := idx_facts t
  unfold iblk
  rw [View.read_apply]
  show V m c main_arg3 _ = _
  rw [V_main_arg3 m c]
  congr 1; funext a; apply Fin.ext
  match a with
  | ⟨0, _⟩ => show win0_3.index t (0 : Fin 1) * 256 + 1 * d.val = d.val; rw [q0]; omega

/-- The edge layer's weights, staged transposed. -/
theorem blk_we (c : Dev nD) (t : Fin cfg0.N) (ch : Fin 6) (d : Fin 256) :
    (iblk m c 4 t : Vec Ideal S6x256 .f32) (ix2 ch d)
      = (m ((c : Thread nD τ).loc main_arg4) : S256x6.Idx → EReal) (ix2 d ch) := by
  obtain ⟨a0, a1, a2, o0, o1, o2, n0, n1, n2, p0, p1, q0, r0, r1, s0, u0, u1, v0, w0, w1, z0⟩ := idx_facts t
  unfold iblk
  rw [View.read_apply]
  show (V m c main_v5 : S6x256.Idx → EReal) _ = _
  rw [V_v5 m c]
  refine transpose_apply [1, 0] _ _ _ (ix2 d ch) (fun b => ?_)
  match b with
  | ⟨0, _⟩ => show ch.val = win0_4.index t (0 : Fin 2) * 6 + 1 * ch.val; rw [r0]; omega
  | ⟨1, _⟩ => show d.val = win0_4.index t (1 : Fin 2) * 256 + 1 * d.val; rw [r1]; omega

/-- The edge layer's bias. -/
theorem blk_be (c : Dev nD) (t : Fin cfg0.N) (d : Fin 256) :
    (iblk m c 5 t : Vec Ideal S256 .f32) (ix1 d) = (m ((c : Thread nD τ).loc main_arg5) : S256.Idx → EReal) (ix1 d) := by
  obtain ⟨a0, a1, a2, o0, o1, o2, n0, n1, n2, p0, p1, q0, r0, r1, s0, u0, u1, v0, w0, w1, z0⟩ := idx_facts t
  unfold iblk
  rw [View.read_apply]
  show V m c main_arg5 _ = _
  rw [V_main_arg5 m c]
  congr 1; funext a; apply Fin.ext
  match a with
  | ⟨0, _⟩ => show win0_5.index t (0 : Fin 1) * 256 + 1 * d.val = d.val; rw [s0]; omega

/-- The edge-plus-neighbour layer's weights, staged transposed. -/
theorem blk_wn (c : Dev nD) (t : Fin cfg0.N) (ch : Fin 6) (d : Fin 256) :
    (iblk m c 6 t : Vec Ideal S6x256 .f32) (ix2 ch d)
      = (m ((c : Thread nD τ).loc main_arg6) : S256x6.Idx → EReal) (ix2 d ch) := by
  obtain ⟨a0, a1, a2, o0, o1, o2, n0, n1, n2, p0, p1, q0, r0, r1, s0, u0, u1, v0, w0, w1, z0⟩ := idx_facts t
  unfold iblk
  rw [View.read_apply]
  show (V m c main_v6 : S6x256.Idx → EReal) _ = _
  rw [V_v6 m c]
  refine transpose_apply [1, 0] _ _ _ (ix2 d ch) (fun b => ?_)
  match b with
  | ⟨0, _⟩ => show ch.val = win0_6.index t (0 : Fin 2) * 6 + 1 * ch.val; rw [u0]; omega
  | ⟨1, _⟩ => show d.val = win0_6.index t (1 : Fin 2) * 256 + 1 * d.val; rw [u1]; omega

/-- The edge-plus-neighbour layer's bias. -/
theorem blk_bn (c : Dev nD) (t : Fin cfg0.N) (d : Fin 256) :
    (iblk m c 7 t : Vec Ideal S256 .f32) (ix1 d) = (m ((c : Thread nD τ).loc main_arg7) : S256.Idx → EReal) (ix1 d) := by
  obtain ⟨a0, a1, a2, o0, o1, o2, n0, n1, n2, p0, p1, q0, r0, r1, s0, u0, u1, v0, w0, w1, z0⟩ := idx_facts t
  unfold iblk
  rw [View.read_apply]
  show V m c main_arg7 _ = _
  rw [V_main_arg7 m c]
  congr 1; funext a; apply Fin.ext
  match a with
  | ⟨0, _⟩ => show win0_7.index t (0 : Fin 1) * 256 + 1 * d.val = d.val; rw [v0]; omega

/-- The last layer's weights, staged transposed: entry (d, k) of the block is the argument's (k, d). -/
theorem blk_w2 (c : Dev nD) (t : Fin cfg0.N) (d : Fin 256) (k : Fin 32) :
    (iblk m c 8 t : Vec Ideal S256x32 .f32) (ix2 d k)
      = (m ((c : Thread nD τ).loc main_arg8) : S32x256.Idx → EReal) (ix2 k d) := by
  obtain ⟨a0, a1, a2, o0, o1, o2, n0, n1, n2, p0, p1, q0, r0, r1, s0, u0, u1, v0, w0, w1, z0⟩ := idx_facts t
  unfold iblk
  rw [View.read_apply]
  show (V m c main_v7 : S256x32.Idx → EReal) _ = _
  rw [V_v7 m c]
  refine transpose_apply [1, 0] _ _ _ (ix2 k d) (fun b => ?_)
  match b with
  | ⟨0, _⟩ => show d.val = win0_8.index t (0 : Fin 2) * 256 + 1 * d.val; rw [w0]; omega
  | ⟨1, _⟩ => show k.val = win0_8.index t (1 : Fin 2) * 32 + 1 * k.val; rw [w1]; omega

/-- The last layer's bias. -/
theorem blk_b2 (c : Dev nD) (t : Fin cfg0.N) (k : Fin 32) :
    (iblk m c 9 t : Vec Ideal S32 .f32) (ix1 k) = (m ((c : Thread nD τ).loc main_arg9) : S32.Idx → EReal) (ix1 k) := by
  obtain ⟨a0, a1, a2, o0, o1, o2, n0, n1, n2, p0, p1, q0, r0, r1, s0, u0, u1, v0, w0, w1, z0⟩ := idx_facts t
  unfold iblk
  rw [View.read_apply]
  show V m c main_arg9 _ = _
  rw [V_main_arg9 m c]
  congr 1; funext a; apply Fin.ext
  match a with
  | ⟨0, _⟩ => show win0_9.index t (0 : Fin 1) * 32 + 1 * k.val = k.val; rw [z0]; omega

/-! ## What a point writes back, the cover, the array -/

/-- The whole-array function at an index whose row and column are known. -/
theorem G_at (x ap : Cert.Bag.SX.Idx → EReal) (w1 : Cert.Bag.SW.Idx → EReal) (b1 : Cert.Bag.SB.Idx → EReal)
    (we : Cert.Bag.SW.Idx → EReal) (be : Cert.Bag.SB.Idx → EReal) (wn : Cert.Bag.SW.Idx → EReal) (bn : Cert.Bag.SB.Idx → EReal)
    (w2 : Cert.Bag.SW2.Idx → EReal) (b2 : Cert.Bag.SB2.Idx → EReal) (i : Cert.Bag.SO.Idx) (n : Fin 8192) (q : Fin 256)
    (hn : (i 1).val = n.val) (hq : (i 2).val = q.val) :
    Cert.Bag.G x ap w1 b1 we be wn bn w2 b2 i
      = Cert.Bag.out (fun c => x (ix3 (0 : Fin 1) c n)) (fun c k => ap (ix3 (0 : Fin 1) c (Cert.Bag.pt k)))
          (fun c d => w1 (ix2 d c)) (fun d => b1 (ix1 d)) (fun c d => we (ix2 d c)) (fun d => be (ix1 d))
          (fun c d => wn (ix2 d c)) (fun d => bn (ix1 d)) (fun d k => w2 (ix2 k d)) (fun k => b2 (ix1 k)) q := by
  have e1 : (i 1 : Fin 8192) = n := Fin.ext hn
  have e2 : (i 2 : Fin 256) = q := Fin.ext hq
  unfold Cert.Bag.G
  rw [e1, e2]

/-- WHAT POINT t WRITES BACK is block t of the whole-array function of the arguments. -/
theorem flushed_eq (htile : TileSpec) (c : Dev nD) (t : Fin cfg0.N) :
    (dats m 0 c).flushed 10 t = ((cfg0.win 10).blk t).view.read (Elt Ideal) (Gm m c) := by
  obtain ⟨a0, a1, a2, o0, o1, o2, n0, n1, n2, p0, p1, q0, r0, r1, s0, u0, u1, v0, w0, w1, z0⟩ := idx_facts t
  have hN : cfg0.N = 32 := N_0
  have ht : t.val < 32 := by have := t.isLt; omega
  rw [Cert.KernelIdeal.Value.flushed10]
  unfold out0_10
  rw [View.canon_unit_zero hz3]
  simp only [View.ld_unit_zero (S := S1x256x6) hz3, View.ld_unit_zero (S := S1x6x32) hz3, View.ld_unit_zero (S := S6x256) hz2,
    View.ld_unit_zero (S := S256) hz1, View.ld_unit_zero (S := S256x32) hz2, View.ld_unit_zero (S := S32) hz1]
  funext j
  obtain ⟨z, r, q, rfl⟩ : ∃ (z : Fin 1) (r q : Fin 256), j = ix3 z r q := ⟨j 0, j 1, j 2, eq_ix3 j⟩
  obtain rfl : z = 0 := Subsingleton.elim _ _
  show k0_pay1 (F := Ideal) (k0_pay8 (k0_pay4 (iblk m c 0 t) (iblk m c 1 t)) (k0_pay5 (iblk m c 0 t) (iblk m c 1 t) (iblk m c 2 t) (iblk m c 3 t))
      (k0_pay6 (iblk m c 0 t) (iblk m c 1 t) (iblk m c 6 t) (iblk m c 7 t)) (k0_pay7 (iblk m c 0 t) (iblk m c 1 t) (iblk m c 6 t) (iblk m c 7 t))
      (iblk m c 4 t) (iblk m c 5 t) (iblk m c 8 t) (iblk m c 9 t)) (ix3 (0 : Fin 1) r q)
    = Gm m c (((cfg0.win 10).blk t).view.emb (ix3 (0 : Fin 1) r q))
  refine (htile (iblk m c 0 t) (iblk m c 1 t) (iblk m c 2 t) (iblk m c 3 t) (iblk m c 4 t) (iblk m c 5 t) (iblk m c 6 t) (iblk m c 7 t)
    (iblk m c 8 t) (iblk m c 9 t) r q).trans ?_
  refine Eq.trans ?_ (G_at _ _ _ _ _ _ _ _ _ _ _ ⟨256 * t.val + r.val, by have := r.isLt; omega⟩ q ?_ ?_).symm
  · have hx : (fun ch => (iblk m c 0 t : Vec Ideal S1x256x6 .f32) (ix3 (0 : Fin 1) r ch))
        = fun ch => (m ((c : Thread nD τ).loc main_arg0) : S1x6x8192.Idx → EReal) (ix3 (0 : Fin 1) ch ⟨256 * t.val + r.val, by have := r.isLt; omega⟩) :=
      funext fun ch => blk_x m c t r ch _ rfl
    have hnb : (fun ch k => (iblk m c 1 t : Vec Ideal S1x6x32 .f32) (ix3 (0 : Fin 1) ch k))
        = fun ch k => (m ((c : Thread nD τ).loc main_arg1) : S1x6x8192.Idx → EReal) (ix3 (0 : Fin 1) ch (Cert.Bag.pt k)) :=
      funext fun ch => funext fun k => blk_nb m c t ch k
    have hw1 : (fun ch d => (iblk m c 2 t : Vec Ideal S6x256 .f32) (ix2 ch d))
        = fun ch d => (m ((c : Thread nD τ).loc main_arg2) : S256x6.Idx → EReal) (ix2 d ch) :=
      funext fun ch => funext fun d => blk_w1 m c t ch d
    have hb1 : (fun d => (iblk m c 3 t : Vec Ideal S256 .f32) (ix1 d))
        = fun d => (m ((c : Thread nD τ).loc main_arg3) : S256.Idx → EReal) (ix1 d) := funext fun d => blk_b1 m c t d
    have hwe : (fun ch d => (iblk m c 4 t : Vec Ideal S6x256 .f32) (ix2 ch d))
        = fun ch d => (m ((c : Thread nD τ).loc main_arg4) : S256x6.Idx → EReal) (ix2 d ch) :=
      funext fun ch => funext fun d => blk_we m c t ch d
    have hbe : (fun d => (iblk m c 5 t : Vec Ideal S256 .f32) (ix1 d))
        = fun d => (m ((c : Thread nD τ).loc main_arg5) : S256.Idx → EReal) (ix1 d) := funext fun d => blk_be m c t d
    have hwn : (fun ch d => (iblk m c 6 t : Vec Ideal S6x256 .f32) (ix2 ch d))
        = fun ch d => (m ((c : Thread nD τ).loc main_arg6) : S256x6.Idx → EReal) (ix2 d ch) :=
      funext fun ch => funext fun d => blk_wn m c t ch d
    have hbn : (fun d => (iblk m c 7 t : Vec Ideal S256 .f32) (ix1 d))
        = fun d => (m ((c : Thread nD τ).loc main_arg7) : S256.Idx → EReal) (ix1 d) := funext fun d => blk_bn m c t d
    have hw2 : (fun d k => (iblk m c 8 t : Vec Ideal S256x32 .f32) (ix2 d k))
        = fun d k => (m ((c : Thread nD τ).loc main_arg8) : S32x256.Idx → EReal) (ix2 k d) :=
      funext fun d => funext fun k => blk_w2 m c t d k
    have hb2 : (fun k => (iblk m c 9 t : Vec Ideal S32 .f32) (ix1 k))
        = fun k => (m ((c : Thread nD τ).loc main_arg9) : S32.Idx → EReal) (ix1 k) := funext fun k => blk_b2 m c t k
    rw [hx, hnb, hw1, hb1, hwe, hbe, hwn, hbn, hw2, hb2]
  · show win0_10.index t (1 : Fin 3) * 256 + 1 * r.val = 256 * t.val + r.val; rw [o1]; omega
  · show win0_10.index t (2 : Fin 3) * 256 + 1 * q.val = q.val; rw [o2]; omega

/-- An index of the result array is in point t's block iff each coordinate is in the block's range on its axis. -/
theorem mem_blk (t : Fin cfg0.N) (i : S1x8192x256.Idx) :
    i ∈ ((cfg0.win 10).blk t).view.set ↔ ∀ a : Fin 3, win0_10.index t a * S1x256x256.size a ≤ (i a).val
      ∧ (i a).val < win0_10.index t a * S1x256x256.size a + S1x256x256.size a := by
  show i ∈ ((View.whole main_v8).slice (win0_10.rect t)).set ↔ _
  rw [View.set_slice_whole, Rect.mem_set_unit]
  exact Iff.rfl

/-- THE ARRAY after the run: row n lies in the block of point n / 256, so the 32 blocks cover the array. -/
theorem final (htile : TileSpec) (c : Dev nD) : (dats m 0 c).arrAt 10 cfg0.N = Gm m c := by
  have hN : cfg0.N = 32 := N_0
  refine (dats m 0 c).arrAt_eq_of_cover 10 (Gm m c) (fun t _ => flushed_eq m htile c t) (fun i => ?_)
  have h0 : (i 0).val < 1 := (i 0).isLt
  have h1 : (i 1).val < 8192 := (i 1).isLt
  have h2 : (i 2).val < 256 := (i 2).isLt
  refine ⟨⟨(i 1).val / 256, by rw [hN]; omega⟩, flush0_10 _, ?_⟩
  obtain ⟨a0, a1, a2, o0, o1, o2, n0, n1, n2, p0, p1, q0, r0, r1, s0, u0, u1, v0, w0, w1, z0⟩ := idx_facts ⟨(i 1).val / 256, by rw [hN]; omega⟩
  rw [mem_blk]
  intro a
  match a with
  | ⟨0, _⟩ => show win0_10.index _ (0 : Fin 3) * 1 ≤ (i 0).val ∧ (i 0).val < win0_10.index _ (0 : Fin 3) * 1 + 1; rw [o0]; omega
  | ⟨1, _⟩ => show win0_10.index _ (1 : Fin 3) * 256 ≤ (i 1).val ∧ (i 1).val < win0_10.index _ (1 : Fin 3) * 256 + 256; rw [o1]; show (i 1).val / 256 * 256 ≤ (i 1).val ∧ (i 1).val < (i 1).val / 256 * 256 + 256; omega
  | ⟨2, _⟩ => show win0_10.index _ (2 : Fin 3) * 256 ≤ (i 2).val ∧ (i 2).val < win0_10.index _ (2 : Fin 3) * 256 + 256; rw [o2]; omega

/-- The kernel's run, read: the result array ends at the whole-array function of the arguments, the arguments unchanged. -/
theorem run (htile : TileSpec) : θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m htile c), (h c).2⟩) (Cert.KernelIdeal.Value.run_blocks m ρ)

end Cert.Bag.Ker

end
-- ==== Proof.InBall.lean ====
/-
  The precondition's last conjunct and the reference's out-of-ball mask.

  The precondition is a conjunction (a chain of `and`s of one-bit scalars) whose last conjunct is the
  all-reduction, by `and`, of the comparison d ≤ c entry by entry, where d is the table of squared distances
  d(p, q) = −2·⟨x_p, y_q⟩ + |x_p|² + |y_q|² and c the word of 1e8 broadcast to the table's shape. The reference
  builds the same table d by the same operations over the same shapes and masks the entries with d > c.
  Over the extended reals the order is total: d ≤ c excludes c < d, so when the precondition is one the mask
  is zero at every entry.
-/
import proofs.«108481_j68702296867335_2_alg».proof.Proof.RefRead
import proofs.«108481_j68702296867335_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Bag.Ref

open Cert.ReferenceIdeal.ReadP Idealize.ShloMosaic Idealize.ShloMosaic.ValueIdx

/-- A rank-0 array has one index. -/
instance scalarIdxSubsingleton : Subsingleton Cert.Pre_finite_inputs.S_.Idx :=
  ⟨fun a b => funext fun d => d.elim0⟩

/-- Over the extended reals, x ≤ y being true makes y < x false. -/
theorem cmp_ogt_zero_of_ole_one (x y : EReal) (h : Ideal.cmp .ole x y = 1#1) : Ideal.cmp .ogt x y = 0#1 := by
  have hxy : x ≤ y := by
    by_contra hn
    simp [Ideal.cmp, hn] at h
  simp [Ideal.cmp, not_lt.2 hxy]

variable [Cert.Pre_finite_inputs.Facts]

/-- The last conjunct of the precondition: the all-reduction of d ≤ c over the reference's own table d. -/
theorem all_le_of_pre (a0 a1 : FVec Ideal Cert.Pre_finite_inputs.S1x6x8192 .f32)
    (a2 : FVec Ideal Cert.Pre_finite_inputs.S256x6 .f32) (a3 : FVec Ideal Cert.Pre_finite_inputs.S256 .f32)
    (a4 : FVec Ideal Cert.Pre_finite_inputs.S256x6 .f32) (a5 : FVec Ideal Cert.Pre_finite_inputs.S256 .f32)
    (a6 : FVec Ideal Cert.Pre_finite_inputs.S256x6 .f32) (a7 : FVec Ideal Cert.Pre_finite_inputs.S256 .f32)
    (a8 : FVec Ideal Cert.Pre_finite_inputs.S32x256 .f32) (a9 : FVec Ideal Cert.Pre_finite_inputs.S32 .f32)
    (h : Cert.Pre_finite_inputs.fn (F := Ideal) a0 a1 a2 a3 a4 a5 a6 a7 a8 a9 = (fun _ => 1#1)) :
    Host.reduce IntOp.andi
      (cmpf (F := Ideal) (φ := .f32) .ole (val_main_v14 (F := Ideal) a0 a1) (val_main_v17 (F := Ideal)))
      (constantI Cert.Pre_finite_inputs.S_ 1 1#1)
      Cert.Pre_finite_inputs.Facts.reducesTo_S1x8192x8192_S_d0_1_2 Cert.Pre_finite_inputs.Facts.h_S_ ix0 = 1#1 := by
  have h0 := congrFun h ix0
  dsimp only [Cert.Pre_finite_inputs.fn, Cert.Pre_finite_inputs.fn_part1, Cert.Pre_finite_inputs.fn_part2,
    Cert.Pre_finite_inputs.fn_part3] at h0
  exact (IntOp.andi_eq_one.1 h0).2

/-- Under the precondition the reference's mask d > c is zero at every entry. -/
theorem mask_false_of_pre (a0 a1 : FVec Ideal Cert.Pre_finite_inputs.S1x6x8192 .f32)
    (a2 : FVec Ideal Cert.Pre_finite_inputs.S256x6 .f32) (a3 : FVec Ideal Cert.Pre_finite_inputs.S256 .f32)
    (a4 : FVec Ideal Cert.Pre_finite_inputs.S256x6 .f32) (a5 : FVec Ideal Cert.Pre_finite_inputs.S256 .f32)
    (a6 : FVec Ideal Cert.Pre_finite_inputs.S256x6 .f32) (a7 : FVec Ideal Cert.Pre_finite_inputs.S256 .f32)
    (a8 : FVec Ideal Cert.Pre_finite_inputs.S32x256 .f32) (a9 : FVec Ideal Cert.Pre_finite_inputs.S32 .f32)
    (h : Cert.Pre_finite_inputs.fn (F := Ideal) a0 a1 a2 a3 a4 a5 a6 a7 a8 a9 = (fun _ => 1#1)) :
    ∀ i, val_main_v18 (F := Ideal) a0 a1 i = 0#1 := by
  intro i
  have hi : Ideal.cmp .ole (val_main_v14 (F := Ideal) a0 a1 i) (val_main_v17 (F := Ideal) i) = 1#1 :=
    Host.reduce_andi_all _ _ _ _ ix0 (all_le_of_pre a0 a1 a2 a3 a4 a5 a6 a7 a8 a9 h) i
  exact cmp_ogt_zero_of_ole_one _ _ hi

end Cert.Bag.Ref

end
-- ==== Proof.RefNeighbours.lean ====
/-
  The reference's neighbour search, read at an index, when no point is out of the ball.

  The reference numbers the 8192 points along each row (an iota), replaces the number of every point outside the
  query's ball by the sentinel 8192, sorts each row ascending with a stable sort, keeps the first 32 entries,
  replaces sentinels among them by the row's first entry, and gathers the points those 32 numbers name.
  If the mask "outside the ball" is false everywhere, every row is 0, 1, …, 8191: strictly increasing, so the
  stable sort leaves it as it is; none of its first 32 entries is the sentinel or negative; and the gather
  reads, for neighbour k of every query, point k.
-/
import proofs.«108481_j68702296867335_2_alg».proof.Proof.RefRead
import proofs.«108481_j68702296867335_2_alg».proof.Proof.Spec
import Idealize.ShloMosaic.Lib.SortFacts
import Idealize.ShloMosaic.Lib.ValueIdx
import Idealize.ShloMosaic.Lib.Pipeline.Value

noncomputable section

namespace Cert.Bag.Ref

open Cert.ReferenceIdeal Cert.ReferenceIdeal.ReadP Idealize.ShloMosaic Idealize.ShloMosaic.ValueIdx

/-! ## A stable sort of an already strictly increasing fiber is the identity -/

/-- Where the relation on two distinct positions is "the first is the lower", the stable sort leaves every position
    where it is. -/
theorem sortedFrom_of_lt {n : Nat} (R : Fin n → Fin n → Bool)
    (h : ∀ k k', k ≠ k' → R k k' = decide (k < k')) (k : Fin n) : sortedFrom R k = k := by
  have e : sortedFrom R
      = sortedFrom (fun k k' => decide ((Equiv.refl (Fin n)).symm k < (Equiv.refl (Fin n)).symm k')) :=
    sortedFrom_congr _ _ (fun k k' hk => by rw [h k k' hk]; rfl)
  rw [e]
  unfold sortedFrom
  rw [List.get_of_eq (sortPositions_of_perm (Equiv.refl (Fin n)))]
  simp
  rfl

/-- A sort along axis `d` whose comparator, on the entries at two distinct positions of any fiber, says exactly
    "the first position is the lower" returns its operand. -/
theorem hostSort_eq_self (s : Shape) (d : Nat) {α : Type} (cmp : α → α → BitVec 1) (x : s.Idx → α)
    (h : ∀ (hd : d < s.rank) (j : s.Idx) (k k' : Fin (s.size ⟨d, hd⟩)), k ≠ k' →
      (cmp (x (j.along ⟨d, hd⟩ k)) (x (j.along ⟨d, hd⟩ k')) == 1#1) = decide (k < k')) :
    Host.sort s d cmp x = x := by
  funext j
  unfold Host.sort
  split
  · rename_i hd
    simp only []
    rw [sortedFrom_of_lt _ (h hd j)]
    unfold Shape.Idx.along
    rw [Function.update_eq_self]
  · rfl

/-! ## Small words -/

/-- A number below 2³¹ read back from its 32-bit word as a signed integer. -/
theorem toInt_ofNat_small (a : Nat) (ha : a < 2147483648) : (BitVec.ofNat 32 a).toInt = (a : Int) := by
  rw [BitVec.toInt_eq_toNat_cond, BitVec.toNat_ofNat]
  have e : a % 2 ^ 32 = a := Nat.mod_eq_of_lt (by omega)
  rw [e, if_pos (by omega)]

/-- The signed "less than" of two small numbers' words is the numbers'. -/
theorem cmpi_slt_ofNat (a b : Nat) (ha : a < 2147483648) (hb : b < 2147483648) :
    (IntOp.cmpi .slt (BitVec.ofNat 32 a) (BitVec.ofNat 32 b) == 1#1) = decide (a < b) := by
  unfold IntOp.cmpi
  simp only [BitVec.slt, toInt_ofNat_small a ha, toInt_ofNat_small b hb]
  by_cases hab : a < b
  · have : ((a : Int) < (b : Int)) := by exact_mod_cast hab
    simp [hab, this]
  · have : ¬ ((a : Int) < (b : Int)) := by exact_mod_cast hab
    simp [hab, this]

/-- A small number's word is not negative. -/
theorem cmpi_slt_zero (a : Nat) (ha : a < 2147483648) : IntOp.cmpi .slt (BitVec.ofNat 32 a) 0#32 = 0#1 := by
  have h := cmpi_slt_ofNat a 0 ha (by omega)
  have h0 : ¬ (a < 0) := Nat.not_lt_zero a
  rw [decide_eq_false h0] at h
  exact eq_zero_of_ne_one (fun e => by rw [e] at h; exact absurd h (by decide))

/-- A number below 8192 is not the sentinel 8192. -/
theorem cmpi_eq_sentinel (a : Nat) (ha : a < 8192) : IntOp.cmpi .eq (BitVec.ofNat 32 a) 8192#32 = 0#1 := by
  unfold IntOp.cmpi
  have hne : (BitVec.ofNat 32 a == 8192#32) = false := by
    rw [beq_eq_false_iff_ne]
    intro e
    have := congrArg BitVec.toNat e
    rw [BitVec.toNat_ofNat] at this
    have e' : a % 2 ^ 32 = a := Nat.mod_eq_of_lt (by omega)
    rw [e'] at this
    simp at this
    omega
  simp only [hne]
  rfl

/-- A small number read signed off its word and clamped. -/
theorem toNat_toInt_ofNat_small (a : Nat) (ha : a < 2147483648) : (BitVec.ofNat 32 a).toInt.toNat = a := by
  rw [toInt_ofNat_small a ha]; rfl

/-! ## The start indices' join and the gather, read at an index -/

section Layout

variable [Cert.ReferenceIdeal.Facts₀]
open Cert.ReferenceIdeal.Facts₀

/-- The gather's dimension numbers. -/
private abbrev D := gather_S1x8192x6_S1x8192x32x2_S1x8192x32x6_3_01_n_n_01_3_116

/-- The gather at (0, n, k, c), when the start index of (n, k) has point component k (a number below 32, so that the
    clamp into [0, 8191] keeps it): the operand at (0, k, c). The batch component is not read: the operand's batch
    axis has one position. -/
theorem gather_point {α : Type} (x : S1x8192x6.Idx → α) (idx : IVec S1x8192x32x2 32) (n : Fin 8192) (k : Fin 32) (c : Fin 6)
    (hidx : idx (ix4 (0 : Fin 1) n k (1 : Fin 2)) = BitVec.ofNat 32 k.val) :
    Host.gather D x idx (ix4 (0 : Fin 1) n k c) = x (ix3 (0 : Fin 1) (Cert.Bag.pt k) c) := by
  show x (D.operandIdx (ix4 (0 : Fin 1) n k c) idx) = _
  congr 1
  funext a
  refine Fin.ext ?_
  have hbat : ∀ a : Fin S1x8192x6.rank, a ∉ D.operandBatchingDims := fun a ha => by cases ha
  match a with
  | ⟨0, _⟩ =>
    show ((D.operandIdx (ix4 (0 : Fin 1) n k c) idx) 0).val = 0
    have h0 : ((D.operandIdx (ix4 (0 : Fin 1) n k c) idx) 0).val < 1 := Fin.isLt _
    omega
  | ⟨2, _⟩ =>
    show ((D.operandIdx (ix4 (0 : Fin 1) n k c) idx) 2).val = c.val
    show D.start (ix4 (0 : Fin 1) n k c) idx 2
      + D.batchCoord (ix4 (0 : Fin 1) n k c) 2 + D.offCoord (ix4 (0 : Fin 1) n k c) 2 = c.val
    rw [GatherDims.batchCoord_eq_zero _ _ _ (hbat 2)]
    have hm2 : (2 : Fin S1x8192x6.rank) ∉ D.startIndexMap := by
      show (2 : Fin 3) ∉ ([0, 1] : List (Fin 3)); decide
    have hs : D.start (ix4 (0 : Fin 1) n k c) idx 2 = 0 := by
      unfold GatherDims.start
      rw [dif_neg hm2]
    rw [hs]
    simp only [Nat.zero_add]
    rfl
  | ⟨1, _⟩ =>
    show ((D.operandIdx (ix4 (0 : Fin 1) n k c) idx) 1).val = k.val
    show D.start (ix4 (0 : Fin 1) n k c) idx 1
      + D.batchCoord (ix4 (0 : Fin 1) n k c) 1 + D.offCoord (ix4 (0 : Fin 1) n k c) 1 = k.val
    have hc1 : (1 : Fin S1x8192x6.rank) ∈ D.collapsedSliceDims := by
      show (1 : Fin 3) ∈ ([0, 1] : List (Fin 3)); decide
    have hm1 : (1 : Fin S1x8192x6.rank) ∈ D.startIndexMap := by
      show (1 : Fin 3) ∈ ([0, 1] : List (Fin 3)); decide
    rw [GatherDims.batchCoord_eq_zero _ _ _ (hbat 1),
      GatherDims.offCoord_eq_zero _ _ _ (fun hm => ((GatherDims.mem_sKept _ _).mp hm).1 hc1)]
    simp only [Nat.add_zero]
    unfold GatherDims.start
    rw [dif_pos hm1]
    have hsi : D.siIdx (ix4 (0 : Fin 1) n k c) ⟨List.idxOf (1 : Fin S1x8192x6.rank) D.startIndexMap,
        List.idxOf_lt_length_iff.2 hm1⟩
        = ix4 (0 : Fin 1) n k (1 : Fin 2) := by
      funext b; refine Fin.ext ?_
      match b with
      | ⟨0, _⟩ => rfl
      | ⟨1, _⟩ => rfl
      | ⟨2, _⟩ => rfl
      | ⟨3, _⟩ => rfl
    rw [hsi, hidx, toNat_toInt_ofNat_small _ (by have := k.isLt; omega)]
    show min k.val (8192 - 1) = k.val
    have := k.isLt
    omega

/-- The joined start indices at component 1 read the second piece. -/
theorem concat_point {α : Type} (a b : S1x8192x32x1.Idx → α) (n : Fin 8192) (k : Fin 32) :
    concatenate S1x8192x32x2 3 [⟨S1x8192x32x1, a⟩, ⟨S1x8192x32x1, b⟩] concatenates_S1x8192x32x1_S1x8192x32x1_S1x8192x32x2_d3
      (ix4 (0 : Fin 1) n k (1 : Fin 2)) = b (ix4 (0 : Fin 1) n k (0 : Fin 1)) := by
  refine concatenate_pair_apply_right (t := S1x8192x32x2) (s₁ := S1x8192x32x1) (s₂ := S1x8192x32x1) _ _ _ _
    (ix4 (0 : Fin 1) n k (1 : Fin 2)) rfl rfl
    (ix4 (0 : Fin 1) n k (0 : Fin 1)) (fun b hb => ?_) rfl
  match b, hb with
  | ⟨0, _⟩, _ => rfl
  | ⟨1, _⟩, _ => rfl
  | ⟨2, _⟩, _ => rfl
  | ⟨3, _⟩, hb => exact absurd rfl hb

end Layout

/-! ## The table of point numbers, stage by stage -/

section Stages

variable (x0 x1 : (⟨S1x6x8192, .f32⟩ : BufTy).Contents (Elt Ideal))
  (h : ∀ i, val_main_v18 (F := Ideal) x0 x1 i = 0#1)
include h

/-- With the mask false everywhere the masked table is the iota: entry (0, n, m) is m. -/
theorem v19_apply (i : S1x8192x8192.Idx) :
    val_main_v19 (F := Ideal) x0 x1 i = BitVec.ofNat 32 (i 2).val := by
  rw [val_main_v19_apply, h i, select_zero, val_main_v16_apply, val_main_v15_apply]

/-- Every row of that table is strictly increasing, so the sort returns it. -/
theorem v20_eq : val_main_v20 (F := Ideal) x0 x1 = val_main_v19 (F := Ideal) x0 x1 := by
  unfold val_main_v20
  refine hostSort_eq_self _ 2 _ _ (fun hd j k k' hk => ?_)
  rw [v19_apply x0 x1 h, v19_apply x0 x1 h]
  have e1 : (j.along ⟨2, hd⟩ k) 2 = k := by
    show Function.update j (⟨2, hd⟩ : Fin S1x8192x8192.rank) k ⟨2, hd⟩ = k
    exact Function.update_self _ _ _
  have e2 : (j.along ⟨2, hd⟩ k') 2 = k' := by
    show Function.update j (⟨2, hd⟩ : Fin S1x8192x8192.rank) k' ⟨2, hd⟩ = k'
    exact Function.update_self _ _ _
  rw [e1, e2]
  have hk1 : k.val < 8192 := k.isLt
  have hk2 : k'.val < 8192 := k'.isLt
  unfold comparator_i32_d2
  exact cmpi_slt_ofNat k.val k'.val (by omega) (by omega)

/-- The first 32 entries of every row: entry (0, n, k) is k. -/
theorem v21_apply (i : S1x8192x32.Idx) :
    val_main_v21 (F := Ideal) x0 x1 i = BitVec.ofNat 32 (i 2).val := by
  rw [val_main_v21_apply, v20_eq x0 x1 h, v19_apply x0 x1 h]

/-- None of them is the sentinel, so the replacement by the row's first entry keeps them. -/
theorem v25_apply (i : S1x8192x32.Idx) :
    val_main_v25 (F := Ideal) x0 x1 i = BitVec.ofNat 32 (i 2).val := by
  have h2 : (i 2).val < 32 := (i 2).isLt
  have h23 : val_main_v23 (F := Ideal) x0 x1 i = 0#1 := by
    rw [val_main_v23_apply, v21_apply x0 x1 h, val_main_v22_apply, val_main_c_3_apply]
    exact cmpi_eq_sentinel _ (by omega)
  rw [val_main_v25_apply, h23, select_zero, v21_apply x0 x1 h]

/-- None of them is negative, so the wrap of negative numbers keeps them. -/
theorem v37_apply (i : S1x8192x32.Idx) :
    val_main_v37 (F := Ideal) x0 x1 i = BitVec.ofNat 32 (i 2).val := by
  have h2 : (i 2).val < 32 := (i 2).isLt
  have h34 : val_main_v34 (F := Ideal) x0 x1 i = 0#1 := by
    rw [val_main_v34_apply, v25_apply x0 x1 h, val_main_v33_apply, val_main_c_6_apply]
    exact cmpi_slt_zero _ (by omega)
  rw [val_main_v37_apply, h34, select_zero, v25_apply x0 x1 h]

/-- The point-number column of the start indices. -/
theorem v40_apply (i : S1x8192x32x1.Idx) :
    val_main_v40 (F := Ideal) x0 x1 i = BitVec.ofNat 32 (i 2).val := by
  rw [val_main_v40_apply, v37_apply x0 x1 h]

/-- The start index of (query n, neighbour k), second component: the point number, k. -/
theorem v41_apply_point (n : Fin 8192) (k : Fin 32) :
    val_main_v41 (F := Ideal) x0 x1 (ix4 (0 : Fin 1) n k (1 : Fin 2)) = BitVec.ofNat 32 k.val := by
  unfold val_main_v41
  exact (concat_point _ _ n k).trans (v40_apply x0 x1 h _)

/-- THE GATHERED NEIGHBOURS: neighbour k of every query n is point k, channel by channel. -/
theorem gather_first_points (n : Fin 8192) (k : Fin 32) (c : Fin 6) :
    val_main_v42 (F := Ideal) x0 x1 (ix4 (0 : Fin 1) n k c) = x1 (ix3 (0 : Fin 1) c (Cert.Bag.pt k)) := by
  unfold val_main_v42
  rw [gather_point _ _ n k c (v41_apply_point x0 x1 h n k), val_main_v1_apply]
  congr 1
  funext a
  match a with
  | ⟨0, _⟩ => rfl
  | ⟨1, _⟩ => rfl
  | ⟨2, _⟩ => rfl

end Stages

end Cert.Bag.Ref

end
-- ==== Proof.RefQuery.lean ====
/-
  The reference, after its neighbour gather, is the one-query function, entry by entry.

  Given that the gathered neighbours of every query are the first 32 points (the hypothesis of every statement here),
  each stage of the reference read at explicit coordinates is the matching stage of the one-query function on the
  query's channels  xq_c = x(0, c, n)  and the neighbours' channels  nb_c(k) = ap(0, c, k):
      log (xq − nb)                    the edges                       at (0, n, k, c)
      xq + Σ_k edge                    the shifted query               at (0, n, 0, c)
      max (Σ_c · w + b, 0)             the three first layers          at (0, n, 0, d) and (0, n, k, d)
      after1 + Σ_k evf − Σ_k ef        their combination               at (0, n, 0, d)
      max (Σ_d · w2 + b2, 0)           the 32 scores                   at (0, n, 0, k)
      the row maximum from −∞, the exponentials, their sum and the quotient: the max-shifted softmax
      Σ_k att k · evf k q              the weighted sum                at (0, n, 0, q)
  and the final reshape [1, 8192, 1, 256] → [1, 8192, 256] only drops the unit axis.
-/
import proofs.«108481_j68702296867335_2_alg».proof.Proof.RefRead
import proofs.«108481_j68702296867335_2_alg».proof.Proof.Spec
import Idealize.ShloMosaic.Lib.ValueIdx
import Idealize.ShloMosaic.PureOps.Ideal.Laws
import Idealize.ShloMosaic.PureOps.Reduce

open scoped BigOperators

noncomputable section

namespace Cert.Bag.Ref

open Cert.ReferenceIdeal Cert.ReferenceIdeal.ReadP Idealize.ShloMosaic Idealize.ShloMosaic.ValueIdx

/-- Two indices are equal when their coordinates are: rank 1 … rank 4, each coordinate by computation. -/
local macro "ix_ext1" : tactic =>
  `(tactic| exact funext fun a => Fin.ext (by match a with | ⟨0, _⟩ => rfl))
local macro "ix_ext2" : tactic =>
  `(tactic| exact funext fun a => Fin.ext (by match a with | ⟨0, _⟩ => rfl | ⟨1, _⟩ => rfl))
local macro "ix_ext3" : tactic =>
  `(tactic| exact funext fun a => Fin.ext (by match a with | ⟨0, _⟩ => rfl | ⟨1, _⟩ => rfl | ⟨2, _⟩ => rfl))
local macro "ix_ext4" : tactic =>
  `(tactic| exact funext fun a => Fin.ext (by match a with | ⟨0, _⟩ => rfl | ⟨1, _⟩ => rfl | ⟨2, _⟩ => rfl | ⟨3, _⟩ => rfl))

variable (x0 x1 : (⟨S1x6x8192, .f32⟩ : BufTy).Contents (Elt Ideal))
  (x2 : (⟨S256x6, .f32⟩ : BufTy).Contents (Elt Ideal)) (x3 : (⟨S256, .f32⟩ : BufTy).Contents (Elt Ideal))
  (x4 : (⟨S256x6, .f32⟩ : BufTy).Contents (Elt Ideal)) (x5 : (⟨S256, .f32⟩ : BufTy).Contents (Elt Ideal))
  (x6 : (⟨S256x6, .f32⟩ : BufTy).Contents (Elt Ideal)) (x7 : (⟨S256, .f32⟩ : BufTy).Contents (Elt Ideal))
  (x8 : (⟨S32x256, .f32⟩ : BufTy).Contents (Elt Ideal)) (x9 : (⟨S32, .f32⟩ : BufTy).Contents (Elt Ideal))

/-! ## The coordinate functions the one-query function is applied to -/

/-- The channels of query n. -/
abbrev XQ (n : Fin 8192) : Fin 6 → EReal := fun c => x0 (ix3 (0 : Fin 1) c n)
/-- The channels of the 32 neighbours: the first 32 points. -/
abbrev NB : Fin 6 → Fin 32 → EReal := fun c k => x1 (ix3 (0 : Fin 1) c (Cert.Bag.pt k))
/-- A first-layer weight matrix, stored [256, 6], as channel → feature. -/
abbrev W (w : (⟨S256x6, .f32⟩ : BufTy).Contents (Elt Ideal)) : Fin 6 → Fin 256 → EReal := fun c d => w (ix2 d c)
/-- A first-layer bias. -/
abbrev B (b : (⟨S256, .f32⟩ : BufTy).Contents (Elt Ideal)) : Fin 256 → EReal := fun d => b (ix1 d)
/-- The last layer's weights, stored [32, 256], as feature → neighbour. -/
abbrev W2 : Fin 256 → Fin 32 → EReal := fun d k => x8 (ix2 k d)
/-- The last layer's bias. -/
abbrev B2 : Fin 32 → EReal := fun k => x9 (ix1 k)
/-- The 32 scores of query n. -/
abbrev SC (n : Fin 8192) : Fin 32 → EReal :=
  Cert.Bag.score (XQ x0 n) (NB x1) (W x2) (B x3) (W x4) (B x5) (W x6) (B x7) (W2 x8) (B2 x9)

variable (hnb : ∀ (n : Fin 8192) (k : Fin 32) (c : Fin 6),
  val_main_v42 (F := Ideal) x0 x1 (ix4 (0 : Fin 1) n k c) = x1 (ix3 (0 : Fin 1) c (Cert.Bag.pt k)))
include hnb

/-! ## The edges and the shifted query -/

/-- log (xq_c − nb_c(k)) at (0, n, k, c). -/
theorem edge_at (n : Fin 8192) (k : Fin 32) (c : Fin 6) :
    val_main_v46 (F := Ideal) x0 x1 (ix4 (0 : Fin 1) n k c) = Cert.Bag.edge (XQ x0 n) (NB x1) c k := by
  rw [val_main_v46_apply, val_main_v45_apply, val_main_v44_apply, val_main_v43_apply, val_main_v0_apply, hnb]
  have e : idx_main_v0 (idx_main_v43 (idx_main_v44 (ix4 (0 : Fin 1) n k c))) = ix3 (0 : Fin 1) c n := by ix_ext3
  rw [e]
  rfl

/-- The query plus the sum over the 32 neighbours of its edges, at (0, n, 0, c); the sum starts from the word of 0. -/
theorem shifted_at (n : Fin 8192) (c : Fin 6) :
    val_main_v50 (F := Ideal) x0 x1 (ix4 (0 : Fin 1) n (0 : Fin 1) c) = Cert.Bag.shifted (XQ x0 n) (NB x1) c := by
  rw [val_main_v50_apply, val_main_v47_apply, val_main_v0_apply, val_main_v49_apply, val_main_v48_apply,
    val_main_cst_8_apply]
  have e0 : idx_main_v0 (idx_main_v47 (ix4 (0 : Fin 1) n (0 : Fin 1) c)) = ix3 (0 : Fin 1) c n := by ix_ext3
  have ek : ∀ k : Fin 32, idx_main_v48 (idx_main_v49 (ix4 (0 : Fin 1) n (0 : Fin 1) c)) k = ix4 (0 : Fin 1) n k c :=
    fun k => by ix_ext4
  simp only [e0, ek, edge_at x0 x1 hnb n]
  simp only [Ideal.addf_def, Ideal.ofBits_def, Ideal.ofBits_zero_f32, zero_add]
  rfl

/-! ## The three first layers -/

/-- max (Σ_c shifted_c · w1(d, c) + b1(d), 0) at (0, n, 0, d). -/
theorem after1_at (n : Fin 8192) (d : Fin 256) :
    val_main_v55 (F := Ideal) x0 x1 x2 x3 (ix4 (0 : Fin 1) n (0 : Fin 1) d)
      = Cert.Bag.after1 (XQ x0 n) (NB x1) (W x2) (B x3) d := by
  rw [val_main_v55_apply, val_main_v54_apply, val_main_v51_apply, val_main_v53_apply, val_main_v52_apply,
    val_main_call3_v0_apply, val_main_call3_cst_apply]
  have el : ∀ c : Fin 6, lidx_main_v51 (ix4 (0 : Fin 1) n (0 : Fin 1) d) c = ix4 (0 : Fin 1) n (0 : Fin 1) c :=
    fun c => by ix_ext4
  have er : ∀ c : Fin 6, ridx_main_v51 (ix4 (0 : Fin 1) n (0 : Fin 1) d) c = ix2 d c := fun c => by ix_ext2
  have eb : idx_main_v52 (idx_main_v53 (ix4 (0 : Fin 1) n (0 : Fin 1) d)) = ix1 d := by ix_ext1
  simp only [el, er, eb, shifted_at x0 x1 hnb n]
  simp only [Ideal.maximumf_def, Ideal.addf_def, Ideal.ofBits_def, Ideal.ofBits_zero_f32]
  rfl

/-- max (Σ_c (edge_c(k) + nb_c(k)) · wn(d, c) + bn(d), 0) at (0, n, k, d). -/
theorem evf_at (n : Fin 8192) (k : Fin 32) (d : Fin 256) :
    val_main_v61 (F := Ideal) x0 x1 x6 x7 (ix4 (0 : Fin 1) n k d)
      = Cert.Bag.evf (XQ x0 n) (NB x1) (W x6) (B x7) k d := by
  rw [val_main_v61_apply, val_main_v60_apply, val_main_v57_apply, val_main_v59_apply, val_main_v58_apply,
    val_main_call4_v0_apply, val_main_call4_cst_apply]
  have el : ∀ c : Fin 6, lidx_main_v57 (ix4 (0 : Fin 1) n k d) c = ix4 (0 : Fin 1) n k c := fun c => by ix_ext4
  have er : ∀ c : Fin 6, ridx_main_v57 (ix4 (0 : Fin 1) n k d) c = ix2 d c := fun c => by ix_ext2
  have eb : idx_main_v58 (idx_main_v59 (ix4 (0 : Fin 1) n k d)) = ix1 d := by ix_ext1
  simp only [el, er, eb, val_main_v56_apply, edge_at x0 x1 hnb n, hnb n]
  simp only [Ideal.maximumf_def, Ideal.addf_def, Ideal.ofBits_def, Ideal.ofBits_zero_f32]
  rfl

/-- max (Σ_c edge_c(k) · we(d, c) + be(d), 0) at (0, n, k, d). -/
theorem ef_at (n : Fin 8192) (k : Fin 32) (d : Fin 256) :
    val_main_v66 (F := Ideal) x0 x1 x4 x5 (ix4 (0 : Fin 1) n k d)
      = Cert.Bag.ef (XQ x0 n) (NB x1) (W x4) (B x5) k d := by
  rw [val_main_v66_apply, val_main_v65_apply, val_main_v62_apply, val_main_v64_apply, val_main_v63_apply,
    val_main_call5_v0_apply, val_main_call5_cst_apply]
  have el : ∀ c : Fin 6, lidx_main_v62 (ix4 (0 : Fin 1) n k d) c = ix4 (0 : Fin 1) n k c := fun c => by ix_ext4
  have er : ∀ c : Fin 6, ridx_main_v62 (ix4 (0 : Fin 1) n k d) c = ix2 d c := fun c => by ix_ext2
  have eb : idx_main_v63 (idx_main_v64 (ix4 (0 : Fin 1) n k d)) = ix1 d := by ix_ext1
  simp only [el, er, eb, edge_at x0 x1 hnb n]
  simp only [Ideal.maximumf_def, Ideal.addf_def, Ideal.ofBits_def, Ideal.ofBits_zero_f32]
  rfl

/-! ## Their combination and the scores -/

/-- after1 + Σ_k evf k − Σ_k ef k at (0, n, 0, d); both sums start from the word of 0. -/
theorem after2_at (n : Fin 8192) (d : Fin 256) :
    val_main_v72 (F := Ideal) x0 x1 x2 x3 x4 x5 x6 x7 (ix4 (0 : Fin 1) n (0 : Fin 1) d)
      = Cert.Bag.after2 (XQ x0 n) (NB x1) (W x2) (B x3) (W x4) (B x5) (W x6) (B x7) d := by
  rw [val_main_v72_apply, val_main_v69_apply, val_main_v68_apply, val_main_v67_apply, val_main_v71_apply,
    val_main_v70_apply, val_main_cst_9_apply, val_main_cst_10_apply, after1_at x0 x1 x2 x3 hnb n d]
  have e1 : ∀ k : Fin 32, idx_main_v67 (idx_main_v68 (ix4 (0 : Fin 1) n (0 : Fin 1) d)) k = ix4 (0 : Fin 1) n k d :=
    fun k => by ix_ext4
  have e2 : ∀ k : Fin 32, idx_main_v70 (idx_main_v71 (ix4 (0 : Fin 1) n (0 : Fin 1) d)) k = ix4 (0 : Fin 1) n k d :=
    fun k => by ix_ext4
  simp only [e1, e2, evf_at x0 x1 x6 x7 hnb n, ef_at x0 x1 x4 x5 hnb n]
  simp only [Ideal.subf_def, Ideal.addf_def, Ideal.ofBits_def, Ideal.ofBits_zero_f32, zero_add]
  rfl

/-- max (Σ_d after2_d · w2(k, d) + b2(k), 0) at (0, n, 0, k). -/
theorem score_at (n : Fin 8192) (k : Fin 32) :
    val_main_v77 (F := Ideal) x0 x1 x2 x3 x4 x5 x6 x7 x8 x9 (ix4 (0 : Fin 1) n (0 : Fin 1) k)
      = SC x0 x1 x2 x3 x4 x5 x6 x7 x8 x9 n k := by
  rw [val_main_v77_apply, val_main_v76_apply, val_main_v73_apply, val_main_v75_apply, val_main_v74_apply,
    val_main_call6_v0_apply, val_main_call6_cst_apply]
  have el : ∀ d : Fin 256, lidx_main_v73 (ix4 (0 : Fin 1) n (0 : Fin 1) k) d = ix4 (0 : Fin 1) n (0 : Fin 1) d :=
    fun d => by ix_ext4
  have er : ∀ d : Fin 256, ridx_main_v73 (ix4 (0 : Fin 1) n (0 : Fin 1) k) d = ix2 k d := fun d => by ix_ext2
  have eb : idx_main_v74 (idx_main_v75 (ix4 (0 : Fin 1) n (0 : Fin 1) k)) = ix1 k := by ix_ext1
  simp only [el, er, eb, after2_at x0 x1 x2 x3 x4 x5 x6 x7 hnb n]
  simp only [Ideal.maximumf_def, Ideal.addf_def, Ideal.ofBits_def, Ideal.ofBits_zero_f32]
  rfl

/-! ## The max-shifted softmax -/

/-- The maximum-reduce over the 32 scores from the word of −∞ is the fold of max over them, and one more maximum with
    −∞ changes nothing: at (0, n, 0) the row maximum. -/
theorem rowmax_at (n : Fin 8192) :
    val_main_v80 (F := Ideal) x0 x1 x2 x3 x4 x5 x6 x7 x8 x9 (ix3 (0 : Fin 1) n (0 : Fin 1))
      = Cert.Lib.rowMax Cert.Bag.negInf (SC x0 x1 x2 x3 x4 x5 x6 x7 x8 x9 n) := by
  have h : S1x8192x1x32.Reduces [3] S1x8192x1 := by decide
  have h78 : val_main_v78 (F := Ideal) x0 x1 x2 x3 x4 x5 x6 x7 x8 x9 (ix3 (0 : Fin 1) n (0 : Fin 1))
      = Cert.Lib.rowMax Cert.Bag.negInf (SC x0 x1 x2 x3 x4 x5 x6 x7 x8 x9 n) := by
    unfold val_main_v78
    rw [Host.reduce_eq_fold_single FloatOps.maximumf _ _ _ h]
    have hf : (val_main_v77 (F := Ideal) x0 x1 x2 x3 x4 x5 x6 x7 x8 x9 ∘ h.lift (ix3 (0 : Fin 1) n (0 : Fin 1)))
        = fun k : Fin 32 => SC x0 x1 x2 x3 x4 x5 x6 x7 x8 x9 n k := funext fun k => by
      have ek : h.lift (ix3 (0 : Fin 1) n (0 : Fin 1)) k = ix4 (0 : Fin 1) n (0 : Fin 1) (⟨k.val, k.isLt⟩ : Fin 32) := by
        ix_ext4
      show val_main_v77 (F := Ideal) x0 x1 x2 x3 x4 x5 x6 x7 x8 x9 (h.lift (ix3 (0 : Fin 1) n (0 : Fin 1)) k) = _
      rw [ek]
      exact score_at x0 x1 x2 x3 x4 x5 x6 x7 x8 x9 hnb n _
    exact congrArg (fun f => Finset.fold max Cert.Bag.negInf f (Finset.univ : Finset (Fin 32))) hf
  rw [val_main_v80_apply, val_main_v79_apply, val_main_cst_12_apply, h78]
  exact Cert.Lib.max_rowMax _ _

/-- exp (score_k − the row maximum) at (0, n, 0, k). -/
theorem exp_at (n : Fin 8192) (k : Fin 32) :
    val_main_v84 (F := Ideal) x0 x1 x2 x3 x4 x5 x6 x7 x8 x9 (ix4 (0 : Fin 1) n (0 : Fin 1) k)
      = Ideal.exp (SC x0 x1 x2 x3 x4 x5 x6 x7 x8 x9 n k
          - Cert.Lib.rowMax Cert.Bag.negInf (SC x0 x1 x2 x3 x4 x5 x6 x7 x8 x9 n)) := by
  rw [val_main_v84_apply, val_main_v83_apply, val_main_v82_apply, val_main_v81_apply,
    score_at x0 x1 x2 x3 x4 x5 x6 x7 x8 x9 hnb n k]
  have e : idx_main_v81 (idx_main_v82 (ix4 (0 : Fin 1) n (0 : Fin 1) k)) = ix3 (0 : Fin 1) n (0 : Fin 1) := by ix_ext3
  rw [e, rowmax_at x0 x1 x2 x3 x4 x5 x6 x7 x8 x9 hnb n]
  rfl

/-- The exponential over the sum of the 32 exponentials (from the word of 0): the attention weight at (0, n, 0, k). -/
theorem att_at (n : Fin 8192) (k : Fin 32) :
    val_main_v88 (F := Ideal) x0 x1 x2 x3 x4 x5 x6 x7 x8 x9 (ix4 (0 : Fin 1) n (0 : Fin 1) k)
      = Cert.Bag.att (XQ x0 n) (NB x1) (W x2) (B x3) (W x4) (B x5) (W x6) (B x7) (W2 x8) (B2 x9) k := by
  rw [val_main_v88_apply, val_main_v87_apply, val_main_v86_apply, val_main_v85_apply, val_main_cst_13_apply,
    exp_at x0 x1 x2 x3 x4 x5 x6 x7 x8 x9 hnb n k]
  have e : ∀ j : Fin 32, idx_main_v85 (idx_main_v86 (idx_main_v87 (ix4 (0 : Fin 1) n (0 : Fin 1) k))) j
      = ix4 (0 : Fin 1) n (0 : Fin 1) j := fun j => by ix_ext4
  simp only [e, exp_at x0 x1 x2 x3 x4 x5 x6 x7 x8 x9 hnb n]
  simp only [Ideal.hostDivf_def, Ideal.ofBits_def, Ideal.ofBits_zero_f32, zero_add]
  rfl

/-! ## The weighted sum and the result -/

/-- Σ_k att k · evf k q at (0, n, 0, q). -/
theorem out_at (n : Fin 8192) (q : Fin 256) :
    val_main_v89 (F := Ideal) x0 x1 x2 x3 x4 x5 x6 x7 x8 x9 (ix4 (0 : Fin 1) n (0 : Fin 1) q)
      = Cert.Bag.out (XQ x0 n) (NB x1) (W x2) (B x3) (W x4) (B x5) (W x6) (B x7) (W2 x8) (B2 x9) q := by
  rw [val_main_v89_apply]
  have el : ∀ k : Fin 32, lidx_main_v89 (ix4 (0 : Fin 1) n (0 : Fin 1) q) k = ix4 (0 : Fin 1) n (0 : Fin 1) k :=
    fun k => by ix_ext4
  have er : ∀ k : Fin 32, ridx_main_v89 (ix4 (0 : Fin 1) n (0 : Fin 1) q) k = ix4 (0 : Fin 1) n k q :=
    fun k => by ix_ext4
  simp only [el, er, att_at x0 x1 x2 x3 x4 x5 x6 x7 x8 x9 hnb n, evf_at x0 x1 x6 x7 hnb n]
  rfl

/-- The reference's result, entry by entry, is the one-query function read from the stored layouts: the last reshape
    sends (0, n, q) to (0, n, 0, q). -/
theorem result_at (i : S1x8192x256.Idx) :
    val_main_v90 (F := Ideal) x0 x1 x2 x3 x4 x5 x6 x7 x8 x9 i = Cert.Bag.G x0 x1 x2 x3 x4 x5 x6 x7 x8 x9 i := by
  rw [val_main_v90_apply]
  have e : idx_main_v90 i
      = ix4 (0 : Fin 1) (⟨(i 1).val, (i 1).isLt⟩ : Fin 8192) (0 : Fin 1) (⟨(i 2).val, (i 2).isLt⟩ : Fin 256) := by
    have h0 : (i 0).val < 1 := (i 0).isLt
    have h1 : (i 1).val < 8192 := (i 1).isLt
    have h2 : (i 2).val < 256 := (i 2).isLt
    funext a
    apply Fin.ext
    match a with
    | ⟨0, _⟩ => rfl
    | ⟨1, _⟩ =>
      show (((i 0).val * 8192 + (i 1).val) * 256 + (i 2).val) / 256 % 8192 = (i 1).val
      omega
    | ⟨2, _⟩ => rfl
    | ⟨3, _⟩ =>
      show (((i 0).val * 8192 + (i 1).val) * 256 + (i 2).val) % 256 = (i 2).val
      omega
  rw [e, out_at x0 x1 x2 x3 x4 x5 x6 x7 x8 x9 hnb (⟨(i 1).val, (i 1).isLt⟩ : Fin 8192) (⟨(i 2).val, (i 2).isLt⟩ : Fin 256)]
  rfl

end Cert.Bag.Ref

end
-- ==== Proof.lean ====
/-
  The certificate: a tiled kernel for an attention-weighted neighbourhood aggregation against its array-level reference,
  over the extended reals.

  For every query n (8192 of them, six channels each) both programs form, for each of 32 neighbours k, the edges
  log (x_c(n) − p_c(k)); send the query shifted by its summed edges, the edges, and the edges with the neighbour added back
  through three 6 → 256 layers with max(·, 0); combine them, send the result through a 256 → 32 layer to get one score
  per neighbour, turn the scores into weights by the max-shifted softmax, and return the weighted sum over the neighbours
  of the third layer's outputs: one function of the arguments, entry by entry (Spec: `Cert.Bag.G`).

  The two programs differ in WHICH 32 neighbours a query sees. The kernel always takes the first 32 points. The reference
  selects them: it masks the points whose squared distance to the query exceeds 1e8 (replacing their index by a sentinel),
  sorts each row of indices, keeps the first 32 and gathers. Under the precondition — no squared distance exceeds 1e8, with
  the distance computed exactly as the reference computes it — the mask is false everywhere, each row of indices is
  0, 1, 2, …, already sorted, and the gathered neighbours are the first 32 points. From there on the two sides are the same
  sums and products in the same order, laid out differently: the kernel works on tiles of 256 queries with the channels
  and neighbours transposed, the reference on whole rank-four arrays. No law of arithmetic beyond re-indexing is used, so
  the finiteness conjuncts of the precondition are not opened.

  The kernel's side: the arithmetic of one tile (KernelTile), the staged blocks read back as entries of the arguments and
  the 32 written-back blocks tiling the result array (KernelValue). The reference's side: the mask from the precondition
  (InBall), the neighbour selection collapsing to the first 32 points (RefNeighbours), the rest of the reference read entry
  by entry (RefQuery), over the reference's run read back stretch by stretch (RefRun, RefRead). The kernels' frames are the
  generated ones; there is nothing to preserve (no operation was rewritten).
-/
import proofs.«108481_j68702296867335_2_alg».proof.Defs
import proofs.«108481_j68702296867335_2_alg».proof.Proof.Gen.Kernel
import proofs.«108481_j68702296867335_2_alg».proof.Proof.Gen.Kernel.Skeleton
import proofs.«108481_j68702296867335_2_alg».proof.Proof.Gen.Kernel.Launch
import proofs.«108481_j68702296867335_2_alg».proof.Proof.Gen.Kernel.Points
import proofs.«108481_j68702296867335_2_alg».proof.Proof.Gen.Kernel.Frame
import proofs.«108481_j68702296867335_2_alg».proof.Proof.Gen.KernelIdeal
import proofs.«108481_j68702296867335_2_alg».proof.Proof.Gen.KernelIdeal.Skeleton
import proofs.«108481_j68702296867335_2_alg».proof.Proof.Gen.KernelIdeal.Launch
import proofs.«108481_j68702296867335_2_alg».proof.Proof.Gen.KernelIdeal.Points
import proofs.«108481_j68702296867335_2_alg».proof.Proof.Gen.KernelIdeal.Frame
import proofs.«108481_j68702296867335_2_alg».proof.Proof.Gen.ReferenceIdeal
import proofs.«108481_j68702296867335_2_alg».proof.Proof.Gen.Pre_finite_inputs
import proofs.«108481_j68702296867335_2_alg».proof.Proof.Gen.KernelIdeal.Value
import proofs.«108481_j68702296867335_2_alg».proof.Proof.RefRun
import proofs.«108481_j68702296867335_2_alg».proof.Proof.RefRead
import proofs.«108481_j68702296867335_2_alg».proof.Proof.Spec
import proofs.«108481_j68702296867335_2_alg».proof.Proof.KernelTile
import proofs.«108481_j68702296867335_2_alg».proof.Proof.KernelValue
import proofs.«108481_j68702296867335_2_alg».proof.Proof.InBall
import proofs.«108481_j68702296867335_2_alg».proof.Proof.RefNeighbours
import proofs.«108481_j68702296867335_2_alg».proof.Proof.RefQuery
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the one whole-array function of the arguments: the kernel by its 32
    blocks, the reference because under the precondition its neighbour selection returns the first 32 points. -/
theorem algebraic : Cert.algebraic_KernelIdeal_ReferenceIdeal := by
  intro m ρ m' ρ' hpre hagree
  refine ⟨fun c => Cert.Bag.Ker.Gm m c, Cert.Bag.Ker.run m ρ Cert.Bag.Ker.tile_out, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [e0, e1, e2, e3, e4, e5, e6, e7, e8, e9]
  funext i
  exact Cert.Bag.Ref.result_at _ _ _ _ _ _ _ _ _ _
    (Cert.Bag.Ref.gather_first_points _ _ (Cert.Bag.Ref.mask_false_of_pre _ _ _ _ _ _ _ _ _ _ (hpre c))) i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
